-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : IVec S800000 32) (main_arg12 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S50000x256 : Shape := ⟨2, ![50000, 256]⟩

abbrev nBuf : Space → Nat
  | .hbm => 90
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S800000, .i32⟩
  | .hbm, ⟨12, _⟩ => ⟨S800000, .i32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S50000x128, .f32⟩
  | .hbm, ⟨20, _⟩ => ⟨S50000x128, .bf16⟩
  | .hbm, ⟨21, _⟩ => ⟨S50000x128, .bf16⟩
  | .hbm, ⟨22, _⟩ => ⟨S50000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S800000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .bf16⟩
  | .hbm, ⟨61, _⟩ => ⟨S800000x128, .f32⟩
  | .hbm, ⟨62, _⟩ => ⟨S800000x128, .f32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S2000x128_S2000x128 : S2000x128.ShapeCasts S2000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .bf16 = 32 ∨ (Rect.block (s := S50000x128) S2000x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .bf16 = 32 ∨ (Rect.block (s := S50000x128) S2000x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .bf16 = 32 ∨ (Rect.block (s := S50000x128) S2000x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_3) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v6_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S800000, .i32⟩
  | 12 => ⟨S800000, .i32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x128, .f32⟩
  | 48 => ⟨S800000x128, .f32⟩
  | 49 => ⟨S800000x128, .f32⟩
  | 50 => ⟨S_, .f32⟩
  | 51 => ⟨S800000x128, .f32⟩
  | 52 => ⟨S800000x128, .f32⟩
  | 53 => ⟨S_, .f32⟩
  | 54 => ⟨S800000x128, .f32⟩
  | 55 => ⟨S800000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .i1⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x128, .f32⟩
  | 91 => ⟨S50000x128, .i1⟩
  | 92 => ⟨S50000x128, .f32⟩
  | 93 => ⟨S_, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_v0 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The idealized kernel program's run with its RESULT named: every weakly fair execution of @main terminates with the
  result array (the third pallas_call's output) holding the last segment boundary's contents `W6` at that buffer, and
  the thirteen argument arrays as launched. The six segments (three stretches of host operations, three pallas_calls)
  and the contents at each boundary are the generated frame's; only the final read-off asks for one more buffer.
-/
import proofs.«133739_j13022340842268_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its six segments, read against the final state at every unscoped buffer: the result buffer holds
    the last boundary's contents, each argument buffer its launch contents. -/
theorem run_value : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KRun

end
-- ==== Proof.Spec.lean ====
/-
  The three kernel bodies and the node projection as functions of array elements, on the extended reals.
  `lin`: one node projection, row `r` of the node features times column `j` of the weights plus the bias;
  `combS`: the gated aggregate of one node feature — where the gate sum is positive, the projected feature plus the
  weighted sum over the gate sum, elsewhere the input feature — scaled by the literal `2e-5`;
  `finS`: batch normalisation of one feature by a mean and a variance, then the affine map, the positive part, and
  the residual sum.
-/
import Idealize.ShloMosaic.PureOps.Ideal
import Idealize.ShloMosaic.PureOps.Ideal.Laws
import Idealize.ShloMosaic.Lib.ValueIdx

noncomputable section

namespace Cert.GCN

open Idealize.ShloMosaic Idealize.ShloMosaic.ValueIdx

abbrev SN : Shape := ⟨2, ![50000, 128]⟩
abbrev SW : Shape := ⟨2, ![128, 128]⟩
abbrev SR : Shape := ⟨2, ![1, 128]⟩

/-- Row `r` of `X` times column `j` of `W`, plus the bias row's entry `j`. -/
def linC (X : SN.Idx → EReal) (W : SW.Idx → EReal) (b : SR.Idx → EReal) (r : Fin 50000) (j : Fin 128) : EReal :=
  (∑ k : Fin 128, X (ix2 r k) * W (ix2 k j)) + b (ix2 (0 : Fin 1) j)

/-- The node projection `X · W + b` as an array. -/
def lin (X : SN.Idx → EReal) (W : SW.Idx → EReal) (b : SR.Idx → EReal) : SN.Idx → EReal :=
  fun i => linC X W b (i 0) (i 1)

theorem lin_ix2 (X : SN.Idx → EReal) (W : SW.Idx → EReal) (b : SR.Idx → EReal) (r : Fin 50000) (j : Fin 128) :
    lin X W b (ix2 r j) = linC X W b r j := rfl

/-- The literals of the bodies: `0`, `1`, `2e-5` (the reciprocal of the node count as a float), `1e-5`. -/
abbrev zeroL : EReal := Ideal.ofBits .f32 0x00000000#32
abbrev oneL : EReal := Ideal.ofBits .f32 0x3F800000#32
abbrev invnL : EReal := Ideal.ofBits .f32 0x37A7C5AC#32
abbrev epsL : EReal := Ideal.ofBits .f32 0x3727C5AC#32

/-- The gated aggregate of one feature, scaled. -/
def combS (ax x num den : EReal) : EReal :=
  Scalar.select (Ideal.cmp .ogt den zeroL)
    (ax + Ideal.div num (Scalar.select (Ideal.cmp .ogt den zeroL) den oneL)) x * invnL

/-- Normalise, scale and shift, keep the positive part, add the input feature. -/
def finS (h x mean var gamma beta : EReal) : EReal :=
  x + max ((h - mean) * Ideal.rsqrt (var + epsL) * gamma + beta) zeroL

end Cert.GCN

end
-- ==== Proof.KDefs.lean ====
/-
  The kernel program's host operations between its three pallas_calls, as functions of whole arrays on the extended reals, and
  the program's result as one function of the thirteen arguments. A node projection is `lin`; the edge gate is the sigmoid of
  the two gathered projections' sum; the numerator and the denominator are the two column halves of ONE scatter-add of the
  concatenated update array by destination node; the second pallas_call combines them pointwise (`combS`); the column mean and
  variance over the nodes feed the third (`finS`).
-/
import proofs.«133739_j13022340842268_2_alg».proof.KernelIdeal
import proofs.«133739_j13022340842268_2_alg».proof.Proof.Spec
import Idealize.ShloMosaic.Lib.ValueIdx

noncomputable section

namespace Cert.KernelIdeal.KDefs

open Cert.KernelIdeal Cert.KernelIdeal.Facts₀ Idealize.ShloMosaic Idealize.ShloMosaic.ValueIdx

variable [Cert.KernelIdeal.Facts₀]

/-- A node index as jax normalises it before a gather: a negative one has the node count added. -/
def normIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The sigmoid gate of every edge and feature: 1 / (1 + exp (−(DX[src] + EX[dst]))). -/
def gateK (DX EX : FVec Ideal S50000x128 .bf16) (src dst : IVec S800000 32) : FVec Ideal S800000x128 .f32 :=
  Host.divf (broadcastInDim S800000x128 ![] bcast_S_S800000x128 (constant S_ .f32 0x3F800000#32))
    (addf (broadcastInDim S800000x128 ![] bcast_S_S800000x128 (constant S_ .f32 0x3F800000#32))
      (Host.exp (Host.negf (addf
        (extf .f32 (Host.gather gather_S50000x128_S800000x1_S800000x128_1_0_n_n_0_1_1128 DX (normIdx src)) bitsLt_bf16_f32)
        (extf .f32 (Host.gather gather_S50000x128_S800000x1_S800000x128_1_0_n_n_0_1_1128 EX (normIdx dst)) bitsLt_bf16_f32)))))

/-- The one scatter-add by destination node of the concatenated [gate · BX[src] | gate] update array. -/
def fusedK (BX DX EX : FVec Ideal S50000x128 .bf16) (src dst : IVec S800000 32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (concatenate S800000x256 1
      [⟨S800000x128, mulf (gateK DX EX src dst)
          (extf .f32 (Host.gather gather_S50000x128_S800000x1_S800000x128_1_0_n_n_0_1_1128 BX (normIdx src)) bitsLt_bf16_f32)⟩,
       ⟨S800000x128, gateK DX EX src dst⟩] concatenates_S800000x128_S800000x128_S800000x256_d1)

def numK (BX DX EX : FVec Ideal S50000x128 .bf16) (src dst : IVec S800000 32) : FVec Ideal S50000x128 .f32 :=
  extractStridedSlice S50000x128 ![0, 0] (fusedK BX DX EX src dst) slices_S50000x256_S50000x128_0_0

def denK (BX DX EX : FVec Ideal S50000x128 .bf16) (src dst : IVec S800000 32) : FVec Ideal S50000x128 .f32 :=
  extractStridedSlice S50000x128 ![0, 128] (fusedK BX DX EX src dst) slices_S50000x256_S50000x128_0_128

/-- The column means over the nodes, as a [1,128] row. -/
def meanK (H : FVec Ideal S50000x128 .f32) : FVec Ideal S1x128 .f32 :=
  Host.divf (broadcastInDim S1x128 ![1] bcast_S128_S1x128_1
      (Host.reduceAdd H (constant S_ .f32 0x00000000#32) reducesTo_S50000x128_S128_d0 h_S_))
    (broadcastInDim S1x128 ![] bcast_S_S1x128 (constant S_ .f32 0x47435000#32))

/-- The column variances (mean of squared deviations), kept non-negative, as a [1,128] row. -/
def varK (H : FVec Ideal S50000x128 .f32) : FVec Ideal S1x128 .f32 :=
  maximumf
    (Host.divf (broadcastInDim S1x128 ![1] bcast_S128_S1x128_1
        (Host.reduceAdd
          (mulf (subf H (broadcastInDim S50000x128 ![0, 1] bcast_S1x128_S50000x128_0_1 (meanK H)))
                (subf H (broadcastInDim S50000x128 ![0, 1] bcast_S1x128_S50000x128_0_1 (meanK H))))
          (constant S_ .f32 0x00000000#32) reducesTo_S50000x128_S128_d0 h_S_))
      (broadcastInDim S1x128 ![] bcast_S_S1x128 (constant S_ .f32 0x47435000#32)))
    (broadcastInDim S1x128 ![] bcast_S_S1x128 (constant S_ .f32 0x00000000#32))

/-- A bias or scale vector as the [1,128] row a pallas_call reads. -/
abbrev row (b : FVec Ideal S128 .f32) : FVec Ideal S1x128 .f32 := shapeCast S1x128 b shapeCasts_S128_S1x128

/-- The gated aggregate after the second pallas_call, as a function of the arguments. -/
def HK (x0 : FVec Ideal S50000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x11 x12 : IVec S800000 32) : FVec Ideal S50000x128 .f32 :=
  fun i => Cert.GCN.combS (Cert.GCN.lin x0 x1 (row x2) i) (x0 i)
    (numK (Cert.GCN.lin x0 x3 (row x4)) (Cert.GCN.lin x0 x5 (row x6)) (Cert.GCN.lin x0 x7 (row x8)) x11 x12 i)
    (denK (Cert.GCN.lin x0 x3 (row x4)) (Cert.GCN.lin x0 x5 (row x6)) (Cert.GCN.lin x0 x7 (row x8)) x11 x12 i)

/-- The program's result, as a function of the arguments. -/
def outK (x0 : FVec Ideal S50000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (x7 : FVec Ideal S128x128 .f32) (x8 x9 x10 : FVec Ideal S128 .f32) (x11 x12 : IVec S800000 32) : FVec Ideal S50000x128 .f32 :=
  fun i => Cert.GCN.finS (HK x0 x1 x2 x3 x4 x5 x6 x7 x8 x11 x12 i) (x0 i)
    (meanK (HK x0 x1 x2 x3 x4 x5 x6 x7 x8 x11 x12) (ix2 (0 : Fin 1) (i 1)))
    (varK (HK x0 x1 x2 x3 x4 x5 x6 x7 x8 x11 x12) (ix2 (0 : Fin 1) (i 1)))
    (row x9 (ix2 (0 : Fin 1) (i 1))) (row x10 (ix2 (0 : Fin 1) (i 1)))

end Cert.KernelIdeal.KDefs

end
-- ==== Proof.ProjValue.lean ====
/-
  The first pallas_call's four output arrays as whole-array functions of its input arrays, on the extended reals.
  Each output is one node projection `X · W + b`: at a grid point the body multiplies a block of 2000 rows of the node
  features by a whole 128 × 128 weight matrix (accumulating into zero), adds the bias row broadcast along the rows, and
  stores the block; the roundings to bf16 on the way in and out are the identity on the extended reals. The 25 blocks
  of 2000 rows tile the 50000 rows, the block covering row `r` being block `r / 2000`, so each output array ends
  holding `Cert.GCN.lin` of the node features, its weights and its bias row.
-/
import proofs.«133739_j13022340842268_2_alg».proof.Proof.Gen.KernelIdeal.Frame
import proofs.«133739_j13022340842268_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The body's arithmetic at one entry of a block -/

/-- The body's contraction: rows of the block against columns of the weights, over the one shared axis of extent 128. -/
abbrev D := dot_S2000x128_S128x128_S2000x128_1_0_0_1_n_n

/-- The left operand is read at the output's row … -/
theorem lhs_0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
/-- … and the contraction index; -/
theorem lhs_1 (i : S2000x128.Idx) (q : D.contr.Idx) : (D.lhsIdx i q 1).val = (q ⟨0, by decide⟩).val :=
  D.lhsIdx_val_of_single rfl i q
/-- the right operand at the contraction index … -/
theorem rhs_0 (i : S2000x128.Idx) (q : D.contr.Idx) : (D.rhsIdx i q 0).val = (q ⟨0, by decide⟩).val :=
  D.rhsIdx_val_of_single rfl i q
/-- … and the output's column. -/
theorem rhs_1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The matrix product into a zero accumulator, at entry `(p, q)`: the sum over `k` of `x (p, k) * w (k, q)`. -/
theorem mm_apply (x : FVec Ideal S2000x128 .bf16) (w : FVec Ideal S128x128 .bf16) (p : Fin 2000) (q : Fin 128) :
    matmul D none x w (constant S2000x128 .f32 0x00000000#32) (ix2 p q) = ∑ k : Fin 128, x (ix2 p k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

/-- The bias row, recast to its own shape and broadcast along the rows, at entry `(p, q)` is its entry `q`. -/
theorem bias_apply (b : Vec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [shapeCast_self]
  exact broadcastTo_apply b broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- One entry of a block of the projection: row `p` of the block times column `q` of the weights plus the bias entry `q`. -/
def projC (x : S2000x128.Idx → EReal) (w : S128x128.Idx → EReal) (b : S1x128.Idx → EReal) (p : Fin 2000) (q : Fin 128) : EReal :=
  (∑ k : Fin 128, x (ix2 p k) * w (ix2 k q)) + b (ix2 (0 : Fin 1) q)

/-- One block of the projection. -/
def projB (x : S2000x128.Idx → EReal) (w : S128x128.Idx → EReal) (b : S1x128.Idx → EReal) : S2000x128.Idx → EReal :=
  fun j => projC x w b (j 0) (j 1)

theorem projB_ix2 (x : S2000x128.Idx → EReal) (w : S128x128.Idx → EReal) (b : S1x128.Idx → EReal) (p : Fin 2000) (q : Fin 128) :
    projB x w b (ix2 p q) = projC x w b p q := rfl

/-- The product plus the broadcast bias, at an entry. -/
theorem body_apply (x : FVec Ideal S2000x128 .bf16) (w : FVec Ideal S128x128 .bf16) (b : Vec Ideal S1x128 .f32) (p : Fin 2000) (q : Fin 128) :
    addf (matmul D none x w (constant S2000x128 .f32 0x00000000#32))
      (broadcastTo S2000x128 (shapeCast S1x128 b shapeCasts_S1x128_S1x128) broadcasts_S1x128_S2000x128) (ix2 p q) = projC x w b p q := by
  rw [addf_apply, mm_apply, bias_apply]
  rfl

/-- The f32 output's stored value is the block of the projection: its operands' roundings to bf16 are the identity. -/
theorem pay3_eq (x : Vec Ideal S2000x128 .f32) (w : Vec Ideal S128x128 .f32) (b : Vec Ideal S1x128 .f32) :
    k0_pay3 x w b = projB x w b := by
  funext j
  obtain ⟨p, q, rfl⟩ : ∃ (p : Fin 2000) (q : Fin 128), j = ix2 p q := ⟨j 0, j 1, eq_ix2 j⟩
  exact body_apply x w b p q

/-- The bf16 outputs' stored values likewise, the last rounding being the identity too. -/
theorem pay4_eq (x : Vec Ideal S2000x128 .f32) (w : Vec Ideal S128x128 .f32) (b : Vec Ideal S1x128 .f32) :
    k0_pay4 x w b = projB x w b := by
  funext j
  obtain ⟨p, q, rfl⟩ : ∃ (p : Fin 2000) (q : Fin 128), j = ix2 p q := ⟨j 0, j 1, eq_ix2 j⟩
  exact body_apply x w b p q

theorem pay5_eq (x : Vec Ideal S2000x128 .f32) (w : Vec Ideal S128x128 .f32) (b : Vec Ideal S1x128 .f32) :
    k0_pay5 x w b = projB x w b := by
  funext j
  obtain ⟨p, q, rfl⟩ : ∃ (p : Fin 2000) (q : Fin 128), j = ix2 p q := ⟨j 0, j 1, eq_ix2 j⟩
  exact body_apply x w b p q

theorem pay1_eq (x : Vec Ideal S2000x128 .f32) (w : Vec Ideal S128x128 .f32) (b : Vec Ideal S1x128 .f32) :
    k0_pay1 (k0_pay2 x) (k0_pay6 w) (constant S2000x128 .f32 0x00000000#32) b = projB x w b := by
  funext j
  obtain ⟨p, q, rfl⟩ : ∃ (p : Fin 2000) (q : Fin 128), j = ix2 p q := ⟨j 0, j 1, eq_ix2 j⟩
  exact body_apply x w b p q

theorem hz : (![0, 0] : Fin 2 → Nat) = fun _ => 0 := funext fun a => by fin_cases a <;> rfl

/-- A block entry of the projection is the whole-array projection's entry at the row the block's row sits at, when the
    block's three operands read the arrays there. -/
theorem projC_eq_linC (x : S2000x128.Idx → EReal) (w : S128x128.Idx → EReal) (bb : S1x128.Idx → EReal)
    (X : Cert.GCN.SN.Idx → EReal) (W : Cert.GCN.SW.Idx → EReal) (B : Cert.GCN.SR.Idx → EReal)
    (p : Fin 2000) (q : Fin 128) (r : Fin 50000)
    (hx : ∀ k : Fin 128, x (ix2 p k) = X (ix2 r k))
    (hw : ∀ k : Fin 128, w (ix2 k q) = W (ix2 k q))
    (hb : bb (ix2 (0 : Fin 1) q) = B (ix2 (0 : Fin 1) q)) :
    projC x w bb p q = Cert.GCN.linC X W B r q := by
  unfold projC Cert.GCN.linC
  rw [hb]
  refine congrArg (· + B (ix2 (0 : Fin 1) q)) (Finset.sum_congr rfl fun k _ => ?_)
  rw [hx k, hw k]

/-! ## From blocks to the arrays -/

section Arrays
variable (V : (c : Dev nD) → (b : Ref sig .tc) → Buf (Elt Ideal) ((c : Thread nD τ).loc b)) (c : Dev nD)

/-- The node features' block at point `t` is block `t` along the rows, the only block along the columns. -/
theorem idx_factsX : ∀ t : Fin cfg0.N, win0_0.index t (0 : Fin 2) = t.val ∧ win0_0.index t (1 : Fin 2) = 0 :=
  (by decide +kernel : ∀ t : Fin grid0.N, _)

/-- The node features' block at point `t` reads the array 2000 · t rows down. -/
theorem blkX_read (t : Fin cfg0.N) (p : Fin 2000) (k : Fin 128) (h : t.val * 2000 + p.val < 50000) :
    iblk0 V c 0 t (ix2 p k) = V c main_arg0 (ix2 (⟨t.val * 2000 + p.val, h⟩ : Fin 50000) k) := by
  show V c main_arg0 (((cfg0.win 0).blk t).view.emb (ix2 p k)) = _
  refine congrArg (V c main_arg0) (funext fun a => Fin.ext ?_)
  obtain ⟨e0, e1⟩ := idx_factsX t
  match a with
  | ⟨0, _⟩ => show win0_0.index t (0 : Fin 2) * 2000 + 1 * p.val = t.val * 2000 + p.val; omega
  | ⟨1, _⟩ => show win0_0.index t (1 : Fin 2) * 128 + 1 * k.val = k.val; omega

/-! ## Output window 9: the weights are window 1, the bias row window 2 -/

/-- The printed index maps over the grid: the weights' and the bias row's blocks are the whole arrays at every point; the
    output's block at point `t` is block `t` along the rows. -/
theorem idx_facts9 : ∀ t : Fin cfg0.N, win0_1.index t (0 : Fin 2) = 0 ∧ win0_1.index t (1 : Fin 2) = 0
    ∧ win0_2.index t (0 : Fin 2) = 0 ∧ win0_2.index t (1 : Fin 2) = 0
    ∧ win0_9.index t (0 : Fin 2) = t.val ∧ win0_9.index t (1 : Fin 2) = 0 :=
  (by decide +kernel : ∀ t : Fin grid0.N, _)

theorem blkW1_read (t : Fin cfg0.N) (k q : Fin 128) :
    iblk0 V c 1 t (ix2 k q) = V c main_arg1 (ix2 k q) := by
  show V c main_arg1 (((cfg0.win 1).blk t).view.emb (ix2 k q)) = _
  refine congrArg (V c main_arg1) (funext fun a => Fin.ext ?_)
  obtain ⟨e0, e1, -⟩ := idx_facts9 t
  match a with
  | ⟨0, _⟩ => show win0_1.index t (0 : Fin 2) * 128 + 1 * k.val = k.val; omega
  | ⟨1, _⟩ => show win0_1.index t (1 : Fin 2) * 128 + 1 * q.val = q.val; omega

theorem blkB2_read (t : Fin cfg0.N) (q : Fin 128) :
    iblk0 V c 2 t (ix2 (0 : Fin 1) q) = V c main_v0 (ix2 (0 : Fin 1) q) := by
  show V c main_v0 (((cfg0.win 2).blk t).view.emb (ix2 (0 : Fin 1) q)) = _
  refine congrArg (V c main_v0) (funext fun a => Fin.ext ?_)
  obtain ⟨-, -, e2, e3, -⟩ := idx_facts9 t
  match a with
  | ⟨0, _⟩ => show win0_2.index t (0 : Fin 2) * 1 + 1 * 0 = 0; omega
  | ⟨1, _⟩ => show win0_2.index t (1 : Fin 2) * 128 + 1 * q.val = q.val; omega

/-- What point `t` writes back is block `t` of the projection of the arrays as the call finds them. -/
theorem flushed9_eq (t : Fin cfg0.N) :
    (dat0 (F := Ideal) V c).flushed 9 t = ((cfg0.win 9).blk t).view.read (Elt Ideal) (Cert.GCN.lin (V c main_arg0) (V c main_arg1) (V c main_v0)) := by
  show (cfg0.win 9).cut (grid0.coords t) ((dat0 (F := Ideal) V c).after 9 t) = _
  rw [after0_9]
  unfold out0_9
  rw [View.canon_unit_zero hz]
  simp only [View.ld_unit_zero (S := S2000x128) hz, View.ld_unit_zero (S := S128x128) hz, View.ld_unit_zero (S := S1x128) hz]
  rw [pay3_eq]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : t.val * 2000 + p.val < 50000 := by omega
  obtain ⟨-, -, -, -, e4, e5⟩ := idx_facts9 t
  have hemb : ((cfg0.win 9).blk t).view.emb (ix2 p q) = ix2 (⟨t.val * 2000 + p.val, hr⟩ : Fin 50000) q := by
    funext a; apply Fin.ext
    match a with
    | ⟨0, _⟩ => show win0_9.index t (0 : Fin 2) * 2000 + 1 * p.val = t.val * 2000 + p.val; omega
    | ⟨1, _⟩ => show win0_9.index t (1 : Fin 2) * 128 + 1 * q.val = q.val; omega
  show projB (iblk0 V c 0 t) (iblk0 V c 1 t) (iblk0 V c 2 t) (ix2 p q) = Cert.GCN.lin (V c main_arg0) (V c main_arg1) (V c main_v0) (((cfg0.win 9).blk t).view.emb (ix2 p q))
  rw [hemb, Cert.GCN.lin_ix2, projB_ix2]
  exact projC_eq_linC _ _ _ _ _ _ p q _ (fun k => blkX_read V c t p k hr) (fun k => blkW1_read V c t k q) (blkB2_read V c t q)

/-- An index of the array is in point `t`'s block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v6_0).slice (win0_9.rect t)).set ↔ _
  rw [View.set_slice_whole, Rect.mem_set_unit]
  exact Iff.rfl

/-- Every index is in the block of the point its row divided by 2000 names. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  refine ⟨t, flush0_9 t, ?_⟩
  rw [mem_blk9]
  obtain ⟨-, -, -, -, e4, e5⟩ := idx_facts9 t
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The array after the call: the projection of the node features by this output's weights and bias row. -/
theorem arr0_9 : (dat0 (F := Ideal) V c).arrAt 9 cfg0.N = Cert.GCN.lin (V c main_arg0) (V c main_arg1) (V c main_v0) :=
  (dat0 (F := Ideal) V c).arrAt_eq_of_cover 9 _ (fun t _ => flushed9_eq V c t) (cover9)

/-! ## Output window 10: the weights are window 3, the bias row window 4 -/

/-- The printed index maps over the grid: the weights' and the bias row's blocks are the whole arrays at every point; the
    output's block at point `t` is block `t` along the rows. -/
theorem idx_facts10 : ∀ t : Fin cfg0.N, win0_3.index t (0 : Fin 2) = 0 ∧ win0_3.index t (1 : Fin 2) = 0
    ∧ win0_4.index t (0 : Fin 2) = 0 ∧ win0_4.index t (1 : Fin 2) = 0
    ∧ win0_10.index t (0 : Fin 2) = t.val ∧ win0_10.index t (1 : Fin 2) = 0 :=
  (by decide +kernel : ∀ t : Fin grid0.N, _)

theorem blkW3_read (t : Fin cfg0.N) (k q : Fin 128) :
    iblk0 V c 3 t (ix2 k q) = V c main_arg3 (ix2 k q) := by
  show V c main_arg3 (((cfg0.win 3).blk t).view.emb (ix2 k q)) = _
  refine congrArg (V c main_arg3) (funext fun a => Fin.ext ?_)
  obtain ⟨e0, e1, -⟩ := idx_facts10 t
  match a with
  | ⟨0, _⟩ => show win0_3.index t (0 : Fin 2) * 128 + 1 * k.val = k.val; omega
  | ⟨1, _⟩ => show win0_3.index t (1 : Fin 2) * 128 + 1 * q.val = q.val; omega

theorem blkB4_read (t : Fin cfg0.N) (q : Fin 128) :
    iblk0 V c 4 t (ix2 (0 : Fin 1) q) = V c main_v1 (ix2 (0 : Fin 1) q) := by
  show V c main_v1 (((cfg0.win 4).blk t).view.emb (ix2 (0 : Fin 1) q)) = _
  refine congrArg (V c main_v1) (funext fun a => Fin.ext ?_)
  obtain ⟨-, -, e2, e3, -⟩ := idx_facts10 t
  match a with
  | ⟨0, _⟩ => show win0_4.index t (0 : Fin 2) * 1 + 1 * 0 = 0; omega
  | ⟨1, _⟩ => show win0_4.index t (1 : Fin 2) * 128 + 1 * q.val = q.val; omega

/-- What point `t` writes back is block `t` of the projection of the arrays as the call finds them. -/
theorem flushed10_eq (t : Fin cfg0.N) :
    (dat0 (F := Ideal) V c).flushed 10 t = ((cfg0.win 10).blk t).view.read (Elt Ideal) (Cert.GCN.lin (V c main_arg0) (V c main_arg3) (V c main_v1)) := by
  show (cfg0.win 10).cut (grid0.coords t) ((dat0 (F := Ideal) V c).after 10 t) = _
  rw [after0_10]
  unfold out0_10
  rw [View.canon_unit_zero hz]
  simp only [View.ld_unit_zero (S := S2000x128) hz, View.ld_unit_zero (S := S128x128) hz, View.ld_unit_zero (S := S1x128) hz]
  rw [pay4_eq]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : t.val * 2000 + p.val < 50000 := by omega
  obtain ⟨-, -, -, -, e4, e5⟩ := idx_facts10 t
  have hemb : ((cfg0.win 10).blk t).view.emb (ix2 p q) = ix2 (⟨t.val * 2000 + p.val, hr⟩ : Fin 50000) q := by
    funext a; apply Fin.ext
    match a with
    | ⟨0, _⟩ => show win0_10.index t (0 : Fin 2) * 2000 + 1 * p.val = t.val * 2000 + p.val; omega
    | ⟨1, _⟩ => show win0_10.index t (1 : Fin 2) * 128 + 1 * q.val = q.val; omega
  show projB (iblk0 V c 0 t) (iblk0 V c 3 t) (iblk0 V c 4 t) (ix2 p q) = Cert.GCN.lin (V c main_arg0) (V c main_arg3) (V c main_v1) (((cfg0.win 10).blk t).view.emb (ix2 p q))
  rw [hemb, Cert.GCN.lin_ix2, projB_ix2]
  exact projC_eq_linC _ _ _ _ _ _ p q _ (fun k => blkX_read V c t p k hr) (fun k => blkW3_read V c t k q) (blkB4_read V c t q)

/-- An index of the array is in point `t`'s block iff each coordinate is in the block's range on its axis. -/
theorem mem_blk10 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v6_1).slice (win0_10.rect t)).set ↔ _
  rw [View.set_slice_whole, Rect.mem_set_unit]
  exact Iff.rfl

/-- Every index is in the block of the point its row divided by 2000 names. -/
theorem cover10 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  refine ⟨t, flush0_10 t, ?_⟩
  rw [mem_blk10]
  obtain ⟨-, -, -, -, e4, e5⟩ := idx_facts10 t
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- The array after the call: the projection of the node features by this output's weights and bias row. -/
theorem arr0_10 : (dat0 (F := Ideal) V c).arrAt 10 cfg0.N = Cert.GCN.lin (V c main_arg0) (V c main_arg3) (V c main_v1) :=
  (dat0 (F := Ideal) V c).arrAt_eq_of_cover 10 _ (fun t _ => flushed10_eq V c t) (cover10)

/-! ## Output window 11: the weights are window 5, the bias row window 6 -/

/-- The printed index maps over the grid: the weights' and the bias row's blocks are the whole arrays at every point; the
    output's block at point `t` is block `t` along the rows. -/
theorem idx_facts11 : ∀ t : Fin cfg0.N, win0_5.index t (0 : Fin 2) = 0 ∧ win0_5.index t (1 : Fin 2) = 0
    ∧ win0_6.index t (0 : Fin 2) = 0 ∧ win0_6.index t (1 : Fin 2) = 0
    ∧ win0_11.index t (0 : Fin 2) = t.val ∧ win0_11.index t (1 : Fin 2) = 0 :=
  (by decide +kernel : ∀ t : Fin grid0.N, _)

theorem blkW5_read (t : Fin cfg0.N) (k q : Fin 128) :
    iblk0 V c 5 t (ix2 k q) = V c main_arg5 (ix2 k q) := by
  show V c main_arg5 (((cfg0.win 5).blk t).view.emb (ix2 k q)) = _
  refine congrArg (V c main_arg5) (funext fun a => Fin.ext ?_)
  obtain ⟨e0, e1, -⟩ := idx_facts11 t
  match a with
  | ⟨0, _⟩ => show win0_5.index t (0 : Fin 2) * 128 + 1 * k.val = k.val; omega
  | ⟨1, _⟩ => show win0_5.index t (1 : Fin 2) * 128 + 1 * q.val = q.val; omega

theorem blkB6_read (t : Fin cfg0.N) (q : Fin 128) :
    iblk0 V c 6 t (ix2 (0 : Fin 1) q) = V c main_v2 (ix2 (0 : Fin 1) q) := by
  show V c main_v2 (((cfg0.win 6).blk t).view.emb (ix2 (0 : Fin 1) q)) = _
  refine congrArg (V c main_v2) (funext fun a => Fin.ext ?_)
  obtain ⟨-, -, e2, e3, -⟩ := idx_facts11 t
  match a with
  | ⟨0, _⟩ => show win0_6.index t (0 : Fin 2) * 1 + 1 * 0 = 0; omega
  | ⟨1, _⟩ => show win0_6.index t (1 : Fin 2) * 128 + 1 * q.val = q.val; omega

/-- What point `t` writes back is block `t` of the projection of the arrays as the call finds them. -/
theorem flushed11_eq (t : Fin cfg0.N) :
    (dat0 (F := Ideal) V c).flushed 11 t = ((cfg0.win 11).blk t).view.read (Elt Ideal) (Cert.GCN.lin (V c main_arg0) (V c main_arg5) (V c main_v2)) := by
  show (cfg0.win 11).cut (grid0.coords t) ((dat0 (F := Ideal) V c).after 11 t) = _
  rw [after0_11]
  unfold out0_11
  rw [View.canon_unit_zero hz]
  simp only [View.ld_unit_zero (S := S2000x128) hz, View.ld_unit_zero (S := S128x128) hz, View.ld_unit_zero (S := S1x128) hz]
  rw [pay5_eq]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : t.val * 2000 + p.val < 50000 := by omega
  obtain ⟨-, -, -, -, e4, e5⟩ := idx_facts11 t
  have hemb : ((cfg0.win 11).blk t).view.emb (ix2 p q) = ix2 (⟨t.val * 2000 + p.val, hr⟩ : Fin 50000) q := by
    funext a; apply Fin.ext
    match a with
    | ⟨0, _⟩ => show win0_11.index t (0 : Fin 2) * 2000 + 1 * p.val = t.val * 2000 + p.val; omega
    | ⟨1, _⟩ => show win0_11.index t (1 : Fin 2) * 128 + 1 * q.val = q.val; omega
  show projB (iblk0 V c 0 t) (iblk0 V c 5 t) (iblk0 V c 6 t) (ix2 p q) = Cert.GCN.lin (V c main_arg0) (V c main_arg5) (V c main_v2) (((cfg0.win 11).blk t).view.emb (ix2 p q))
  rw [hemb, Cert.GCN.lin_ix2, projB_ix2]
  exact projC_eq_linC _ _ _ _ _ _ p q _ (fun k => blkX_read V c t p k hr) (fun k => blkW5_read V c t k q) (blkB6_read V c t q)

/-- An index of the array is in point `t`'s block iff each coordinate is in the block's range on its axis. -/
theorem mem_blk11 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v6_2).slice (win0_11.rect t)).set ↔ _
  rw [View.set_slice_whole, Rect.mem_set_unit]
  exact Iff.rfl

/-- Every index is in the block of the point its row divided by 2000 names. -/
theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  refine ⟨t, flush0_11 t, ?_⟩
  rw [mem_blk11]
  obtain ⟨-, -, -, -, e4, e5⟩ := idx_facts11 t
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- The array after the call: the projection of the node features by this output's weights and bias row. -/
theorem arr0_11 : (dat0 (F := Ideal) V c).arrAt 11 cfg0.N = Cert.GCN.lin (V c main_arg0) (V c main_arg5) (V c main_v2) :=
  (dat0 (F := Ideal) V c).arrAt_eq_of_cover 11 _ (fun t _ => flushed11_eq V c t) (cover11)

/-! ## Output window 12: the weights are window 7, the bias row window 8 -/

/-- The printed index maps over the grid: the weights' and the bias row's blocks are the whole arrays at every point; the
    output's block at point `t` is block `t` along the rows. -/
theorem idx_facts12 : ∀ t : Fin cfg0.N, win0_7.index t (0 : Fin 2) = 0 ∧ win0_7.index t (1 : Fin 2) = 0
    ∧ win0_8.index t (0 : Fin 2) = 0 ∧ win0_8.index t (1 : Fin 2) = 0
    ∧ win0_12.index t (0 : Fin 2) = t.val ∧ win0_12.index t (1 : Fin 2) = 0 :=
  (by decide +kernel : ∀ t : Fin grid0.N, _)

theorem blkW7_read (t : Fin cfg0.N) (k q : Fin 128) :
    iblk0 V c 7 t (ix2 k q) = V c main_arg7 (ix2 k q) := by
  show V c main_arg7 (((cfg0.win 7).blk t).view.emb (ix2 k q)) = _
  refine congrArg (V c main_arg7) (funext fun a => Fin.ext ?_)
  obtain ⟨e0, e1, -⟩ := idx_facts12 t
  match a with
  | ⟨0, _⟩ => show win0_7.index t (0 : Fin 2) * 128 + 1 * k.val = k.val; omega
  | ⟨1, _⟩ => show win0_7.index t (1 : Fin 2) * 128 + 1 * q.val = q.val; omega

theorem blkB8_read (t : Fin cfg0.N) (q : Fin 128) :
    iblk0 V c 8 t (ix2 (0 : Fin 1) q) = V c main_v3 (ix2 (0 : Fin 1) q) := by
  show V c main_v3 (((cfg0.win 8).blk t).view.emb (ix2 (0 : Fin 1) q)) = _
  refine congrArg (V c main_v3) (funext fun a => Fin.ext ?_)
  obtain ⟨-, -, e2, e3, -⟩ := idx_facts12 t
  match a with
  | ⟨0, _⟩ => show win0_8.index t (0 : Fin 2) * 1 + 1 * 0 = 0; omega
  | ⟨1, _⟩ => show win0_8.index t (1 : Fin 2) * 128 + 1 * q.val = q.val; omega

/-- What point `t` writes back is block `t` of the projection of the arrays as the call finds them. -/
theorem flushed12_eq (t : Fin cfg0.N) :
    (dat0 (F := Ideal) V c).flushed 12 t = ((cfg0.win 12).blk t).view.read (Elt Ideal) (Cert.GCN.lin (V c main_arg0) (V c main_arg7) (V c main_v3)) := by
  show (cfg0.win 12).cut (grid0.coords t) ((dat0 (F := Ideal) V c).after 12 t) = _
  rw [after0_12]
  unfold out0_12
  rw [View.canon_unit_zero hz]
  simp only [View.ld_unit_zero (S := S2000x128) hz, View.ld_unit_zero (S := S128x128) hz, View.ld_unit_zero (S := S1x128) hz]
  rw [pay1_eq]
  funext j
  obtain ⟨p, q, rfl⟩ : ∃ (p : Fin 2000) (q : Fin 128), j = ix2 p q := ⟨j 0, j 1, eq_ix2 j⟩
  have ht : t.val < 25 := t.isLt
  have hp : p.val < 2000 := p.isLt
  have hr : t.val * 2000 + p.val < 50000 := by omega
  obtain ⟨-, -, -, -, e4, e5⟩ := idx_facts12 t
  have hemb : ((cfg0.win 12).blk t).view.emb (ix2 p q) = ix2 (⟨t.val * 2000 + p.val, hr⟩ : Fin 50000) q := by
    funext a; apply Fin.ext
    match a with
    | ⟨0, _⟩ => show win0_12.index t (0 : Fin 2) * 2000 + 1 * p.val = t.val * 2000 + p.val; omega
    | ⟨1, _⟩ => show win0_12.index t (1 : Fin 2) * 128 + 1 * q.val = q.val; omega
  show projB (iblk0 V c 0 t) (iblk0 V c 7 t) (iblk0 V c 8 t) (ix2 p q) = Cert.GCN.lin (V c main_arg0) (V c main_arg7) (V c main_v3) (((cfg0.win 12).blk t).view.emb (ix2 p q))
  rw [hemb, Cert.GCN.lin_ix2, projB_ix2]
  exact projC_eq_linC _ _ _ _ _ _ p q _ (fun k => blkX_read V c t p k hr) (fun k => blkW7_read V c t k q) (blkB8_read V c t q)

/-- An index of the array is in point `t`'s block iff each coordinate is in the block's range on its axis. -/
theorem mem_blk12 (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v6_3).slice (win0_12.rect t)).set ↔ _
  rw [View.set_slice_whole, Rect.mem_set_unit]
  exact Iff.rfl

/-- Every index is in the block of the point its row divided by 2000 names. -/
theorem cover12 (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  refine ⟨t, flush0_12 t, ?_⟩
  rw [mem_blk12]
  obtain ⟨-, -, -, -, e4, e5⟩ := idx_facts12 t
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 128 ≤ (i 1).val ∧ (i 1).val < win0_12.index t (1 : Fin 2) * 128 + 128; omega

/-- The array after the call: the projection of the node features by this output's weights and bias row. -/
theorem arr0_12 : (dat0 (F := Ideal) V c).arrAt 12 cfg0.N = Cert.GCN.lin (V c main_arg0) (V c main_arg7) (V c main_v3) :=
  (dat0 (F := Ideal) V c).arrAt_eq_of_cover 12 _ (fun t _ => flushed12_eq V c t) (cover12)

end Arrays

end Cert.KernelIdeal.ProjValue

end
-- ==== Proof.PointValue.lean ====
/-
  The second and third blocked steps of the layer as functions of whole arrays, on the extended reals.

  Both steps are pointwise. Each grid point loads one block of 2000 rows of every operand, applies one scalar function
  coordinate by coordinate, and stores one block of 2000 rows of the result. The 25 blocks partition the 50000 rows, and
  every operand's block sits at the same rows as the result's block (the per-feature rows of the last step are the same
  single row at every point). Hence the result array is the scalar function applied at every index of the operand arrays:

  * the combine step gives `combS` of the projected feature, the input feature, the weighted sum and the gate sum;
  * the final step gives `finS` of the combined feature, the input feature, and the mean, variance, scale and shift of
    the index's column.

  The argument has three parts for each step: the scalar function read off the block operations at one coordinate pair;
  the block a grid point writes is the restriction of the whole-array function to that point's rows, because a block's
  row `p` is row `2000 · (block index) + p` of the array for operands and result alike; and the blocks cover every
  row, row `r` lying in block `r / 2000`.
-/
import proofs.«133739_j13022340842268_2_alg».proof.Proof.Gen.KernelIdeal.Frame
import proofs.«133739_j13022340842268_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offset of a block's whole-block load and store, as a function. -/
theorem zeros2 : (![0, 0] : Fin 2 → Nat) = fun _ => 0 := funext fun a => by fin_cases a <;> rfl

/-! ## The combine step -/

/-- The block operations of the combine step at one coordinate pair: the comparison of the gate sum with zero, the two
    selections, the quotient, the sum and the scaling act coordinate by coordinate, and the casts to the same shape are
    the identity. -/
theorem pay1_apply (v0 v6 v8 v12 : Vec Ideal S2000x128 .f32) (p : Fin 2000) (q : Fin 128) :
    k1_pay1 v0 v6 v8 v12 (ix2 p q)
      = Cert.GCN.combS (v6 (ix2 p q)) (v12 (ix2 p q)) (v8 (ix2 p q)) (v0 (ix2 p q)) := by
  unfold k1_pay1
  simp only [shapeCast_self]
  rfl

/-- The same for the whole block: every index of a block is a coordinate pair. -/
theorem pay1_fun (v0 v6 v8 v12 : Vec Ideal S2000x128 .f32) :
    k1_pay1 v0 v6 v8 v12 = fun j => Cert.GCN.combS (v6 j) (v12 j) (v8 j) (v0 j) := by
  funext j
  obtain ⟨p, q, rfl⟩ : ∃ (p : Fin 2000) (q : Fin 128), j = ix2 p q := ⟨j 0, j 1, eq_ix2 j⟩
  exact pay1_apply v0 v6 v8 v12 p q

/-- The combine step as a function of four whole arrays. -/
abbrev G1 (ax x num den : S50000x128.Idx → Elt Ideal .f32) : S50000x128.Idx → Elt Ideal .f32 :=
  fun i => Cert.GCN.combS (ax i) (x i) (num i) (den i)

/-- At every grid point each operand's block has the same block index as the result's, on both axes. -/
theorem idx_facts1 : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = win1_4.index t (1 : Fin 2)
    ∧ win1_3.index t (0 : Fin 2) = win1_4.index t (0 : Fin 2)
    ∧ win1_3.index t (1 : Fin 2) = win1_4.index t (1 : Fin 2) :=
  (by decide +kernel : ∀ t : Fin grid1.N, _)

/-- Each of the 25 row blocks (and the one column block) is some grid point's. -/
theorem idx_onto1 : ∀ (q0 : Fin 25), ∃ t : Fin cfg1.N, win1_4.index t = ![q0.val, 0] :=
  (by decide +kernel : ∀ (q0 : Fin 25), ∃ t : Fin grid1.N, win1_4.index t = ![q0.val, 0])

/-- What a grid point writes is the restriction of `G1` of the operand arrays to that point's block: an operand's block
    read at a position inside the block is the operand array read at block index × block size + position, and the block
    indices agree. -/
theorem flushed1_eq (t : Fin cfg1.N) :
    (dat1 (F := Ideal) V c).flushed 4 t
      = ((cfg1.win 4).blk t).view.read (Elt Ideal) (G1 (V c main_v6_0) (V c main_arg0) (V c main_v43) (V c main_v44)) := by
  show (cfg1.win 4).cut (grid1.coords t) ((dat1 V c).after 4 t) = _
  rw [after1_4]
  unfold out1_4
  rw [View.canon_unit_zero zeros2]
  simp only [View.ld_unit_zero (S := S2000x128) zeros2]
  rw [pay1_fun]
  obtain ⟨e0, e1, e2, e3, e4, e5, e6, e7⟩ := idx_facts1 t
  funext j
  show Cert.GCN.combS (V c main_v6_0 (((cfg1.win 0).blk t).view.emb j)) (V c main_arg0 (((cfg1.win 1).blk t).view.emb j))
        (V c main_v43 (((cfg1.win 2).blk t).view.emb j)) (V c main_v44 (((cfg1.win 3).blk t).view.emb j))
      = Cert.GCN.combS (V c main_v6_0 (((cfg1.win 4).blk t).view.emb j)) (V c main_arg0 (((cfg1.win 4).blk t).view.emb j))
        (V c main_v43 (((cfg1.win 4).blk t).view.emb j)) (V c main_v44 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb j = ((cfg1.win 4).blk t).view.emb j := by
    funext a; apply Fin.ext
    match a with
    | ⟨0, _⟩ => show win1_3.index t (0 : Fin 2) * 2000 + 1 * (j 0).val = win1_4.index t (0 : Fin 2) * 2000 + 1 * (j 0).val; omega
    | ⟨1, _⟩ => show win1_3.index t (1 : Fin 2) * 128 + 1 * (j 1).val = win1_4.index t (1 : Fin 2) * 128 + 1 * (j 1).val; omega
  rw [h0, h1, h2, h3]

/-- An index of the array lies in a grid point's result block iff each coordinate lies in the block's range. -/
theorem mem_blk1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v45).slice (win1_4.rect t)).set ↔ _
  rw [View.set_slice_whole, Rect.mem_set_unit]
  exact Iff.rfl

/-- Every index lies in some grid point's result block: row `r` lies in block `r / 2000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE COMBINE STEP'S RESULT ARRAY: `combS` of the four operand arrays at every index. -/
theorem arr1_4 : (Gen.dat1 (F := Ideal) V c).arrAt 4 cfg1.N
      = fun i => Cert.GCN.combS (V c main_v6_0 i) (V c main_arg0 i) (V c main_v43 i) (V c main_v44 i) :=
  (dat1 (F := Ideal) V c).arrAt_eq_of_cover 4 (G1 (V c main_v6_0) (V c main_arg0) (V c main_v43) (V c main_v44))
    (fun t _ => flushed1_eq V c t) cover1

/-! ## The final step -/

/-- A single row spread over 2000 rows, read at row `p` and column `q`, is the row's entry `q`. -/
theorem bcast_row {α : Type} (x : S1x128.Idx → α) (p : Fin 2000) (q : Fin 128) :
    broadcastTo S2000x128 x broadcasts_S1x128_S2000x128 (ix2 p q) = x (ix2 (0 : Fin 1) q) :=
  broadcastTo_apply x _ (ix2 p q) (ix2 (0 : Fin 1) q) (fun a => by
    match a with
    | ⟨0, _⟩ => rfl
    | ⟨1, _⟩ => rfl)

/-- The block operations of the final step at one coordinate pair: the difference from the mean, the product with the
    reciprocal square root of the variance plus the small literal, the scale, the shift, the maximum with zero and the
    sum with the input feature act coordinate by coordinate; the four single rows are read at the column. -/
theorem pay2_apply (v0 : Vec Ideal S2000x128 .f32) (v2 v4 v6 v8 : Vec Ideal S1x128 .f32) (v23 : Vec Ideal S2000x128 .f32)
    (p : Fin 2000) (q : Fin 128) :
    k2_pay1 v0 v2 v4 v6 v8 v23 (ix2 p q)
      = Cert.GCN.finS (v0 (ix2 p q)) (v23 (ix2 p q)) (v2 (ix2 (0 : Fin 1) q)) (v4 (ix2 (0 : Fin 1) q))
          (v6 (ix2 (0 : Fin 1) q)) (v8 (ix2 (0 : Fin 1) q)) := by
  unfold k2_pay1
  simp only [shapeCast_self]
  simp only [addf_apply, maximumf_apply, mulf_apply, subf_apply, broadcast_apply, bcast_row]
  rfl

/-- The same for the whole block: every index of a block is a coordinate pair. -/
theorem pay2_fun (v0 : Vec Ideal S2000x128 .f32) (v2 v4 v6 v8 : Vec Ideal S1x128 .f32) (v23 : Vec Ideal S2000x128 .f32) :
    k2_pay1 v0 v2 v4 v6 v8 v23
      = fun j => Cert.GCN.finS (v0 j) (v23 j) (v2 (ix2 (0 : Fin 1) (j 1))) (v4 (ix2 (0 : Fin 1) (j 1)))
          (v6 (ix2 (0 : Fin 1) (j 1))) (v8 (ix2 (0 : Fin 1) (j 1))) := by
  funext j
  obtain ⟨p, q, rfl⟩ : ∃ (p : Fin 2000) (q : Fin 128), j = ix2 p q := ⟨j 0, j 1, eq_ix2 j⟩
  exact pay2_apply v0 v2 v4 v6 v8 v23 p q

/-- The final step as a function of two whole arrays and four single rows, each row read at the index's column. -/
abbrev G2 (h x : S50000x128.Idx → Elt Ideal .f32) (mean var gamma beta : S1x128.Idx → Elt Ideal .f32) :
    S50000x128.Idx → Elt Ideal .f32 :=
  fun i => Cert.GCN.finS (h i) (x i) (mean (ix2 (0 : Fin 1) (i 1))) (var (ix2 (0 : Fin 1) (i 1)))
    (gamma (ix2 (0 : Fin 1) (i 1))) (beta (ix2 (0 : Fin 1) (i 1)))

/-- At every grid point the two full operands' blocks have the result's block index, the result's column block index
    is zero, and each single-row operand's block index is zero on both axes. -/
theorem idx_facts2 : ∀ t : Fin cfg2.N, win2_0.index t (0 : Fin 2) = win2_6.index t (0 : Fin 2)
    ∧ win2_0.index t (1 : Fin 2) = win2_6.index t (1 : Fin 2)
    ∧ win2_1.index t (0 : Fin 2) = win2_6.index t (0 : Fin 2)
    ∧ win2_1.index t (1 : Fin 2) = win2_6.index t (1 : Fin 2)
    ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Each of the 25 row blocks (and the one column block) is some grid point's. -/
theorem idx_onto2 : ∀ (q0 : Fin 25), ∃ t : Fin cfg2.N, win2_6.index t = ![q0.val, 0] :=
  (by decide +kernel : ∀ (q0 : Fin 25), ∃ t : Fin grid2.N, win2_6.index t = ![q0.val, 0])

/-- Position `j` of a full operand's block is the array index of position `j` of the result's block. -/
theorem emb2_0 (t : Fin cfg2.N) (j : S2000x128.Idx) :
    ((cfg2.win 0).blk t).view.emb j = ((cfg2.win 6).blk t).view.emb j := by
  obtain ⟨e0, e1, e2, e3, e4, a0, a1, b0, b1, c0, c1, d0, d1⟩ := idx_facts2 t
  funext a; apply Fin.ext
  match a with
  | ⟨0, _⟩ => show win2_0.index t (0 : Fin 2) * 2000 + 1 * (j 0).val = win2_6.index t (0 : Fin 2) * 2000 + 1 * (j 0).val; omega
  | ⟨1, _⟩ => show win2_0.index t (1 : Fin 2) * 128 + 1 * (j 1).val = win2_6.index t (1 : Fin 2) * 128 + 1 * (j 1).val; omega

theorem emb2_1 (t : Fin cfg2.N) (j : S2000x128.Idx) :
    ((cfg2.win 1).blk t).view.emb j = ((cfg2.win 6).blk t).view.emb j := by
  obtain ⟨e0, e1, e2, e3, e4, a0, a1, b0, b1, c0, c1, d0, d1⟩ := idx_facts2 t
  funext a; apply Fin.ext
  match a with
  | ⟨0, _⟩ => show win2_1.index t (0 : Fin 2) * 2000 + 1 * (j 0).val = win2_6.index t (0 : Fin 2) * 2000 + 1 * (j 0).val; omega
  | ⟨1, _⟩ => show win2_1.index t (1 : Fin 2) * 128 + 1 * (j 1).val = win2_6.index t (1 : Fin 2) * 128 + 1 * (j 1).val; omega

/-- Row 0, column `j 1` of a single-row operand's block is row 0 of that operand's array at the column of the array
    index of position `j` of the result's block: the row block index is zero, so the column is `j 1` on both sides. -/
theorem emb2_2 (t : Fin cfg2.N) (j : S2000x128.Idx) :
    ((cfg2.win 2).blk t).view.emb (ix2 (0 : Fin 1) (j 1))
      = ix2 (0 : Fin 1) ((((cfg2.win 6).blk t).view.emb j) 1) := by
  obtain ⟨e0, e1, e2, e3, e4, a0, a1, b0, b1, c0, c1, d0, d1⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * (j 1).val = win2_6.index t (1 : Fin 2) * 128 + 1 * (j 1).val; omega

theorem emb2_3 (t : Fin cfg2.N) (j : S2000x128.Idx) :
    ((cfg2.win 3).blk t).view.emb (ix2 (0 : Fin 1) (j 1))
      = ix2 (0 : Fin 1) ((((cfg2.win 6).blk t).view.emb j) 1) := by
  obtain ⟨e0, e1, e2, e3, e4, a0, a1, b0, b1, c0, c1, d0, d1⟩ := idx_facts2 t
  funext a; apply Fin.ext
  match a with
  | ⟨0, _⟩ => show win2_3.index t (0 : Fin 2) * 1 + 1 * 0 = 0; omega
  | ⟨1, _⟩ => show win2_3.index t (1 : Fin 2) * 128 + 1 * (j 1).val = win2_6.index t (1 : Fin 2) * 128 + 1 * (j 1).val; omega

theorem emb2_4 (t : Fin cfg2.N) (j : S2000x128.Idx) :
    ((cfg2.win 4).blk t).view.emb (ix2 (0 : Fin 1) (j 1))
      = ix2 (0 : Fin 1) ((((cfg2.win 6).blk t).view.emb j) 1) := by
  obtain ⟨e0, e1, e2, e3, e4, a0, a1, b0, b1, c0, c1, d0, d1⟩ := idx_facts2 t
  funext a; apply Fin.ext
  match a with
  | ⟨0, _⟩ => show win2_4.index t (0 : Fin 2) * 1 + 1 * 0 = 0; omega
  | ⟨1, _⟩ => show win2_4.index t (1 : Fin 2) * 128 + 1 * (j 1).val = win2_6.index t (1 : Fin 2) * 128 + 1 * (j 1).val; omega

theorem emb2_5 (t : Fin cfg2.N) (j : S2000x128.Idx) :
    ((cfg2.win 5).blk t).view.emb (ix2 (0 : Fin 1) (j 1))
      = ix2 (0 : Fin 1) ((((cfg2.win 6).blk t).view.emb j) 1) := by
  obtain ⟨e0, e1, e2, e3, e4, a0, a1, b0, b1, c0, c1, d0, d1⟩ := idx_facts2 t
  funext a; apply Fin.ext
  match a with
  | ⟨0, _⟩ => show win2_5.index t (0 : Fin 2) * 1 + 1 * 0 = 0; omega
  | ⟨1, _⟩ => show win2_5.index t (1 : Fin 2) * 128 + 1 * (j 1).val = win2_6.index t (1 : Fin 2) * 128 + 1 * (j 1).val; omega

/-- `finS` of equal arguments. -/
theorem finS_congr {h h' x x' m m' v v' g g' b b' : EReal} (e1 : h = h') (e2 : x = x') (e3 : m = m') (e4 : v = v')
    (e5 : g = g') (e6 : b = b') : Cert.GCN.finS h x m v g b = Cert.GCN.finS h' x' m' v' g' b' := by
  rw [e1, e2, e3, e4, e5, e6]

/-- What a grid point writes is the restriction of `G2` of the operand arrays to that point's block. -/
theorem flushed2_eq (t : Fin cfg2.N) :
    (dat2 (F := Ideal) V c).flushed 6 t
      = ((cfg2.win 6).blk t).view.read (Elt Ideal)
          (G2 (V c main_v45) (V c main_arg0) (V c main_v49) (V c main_v58) (V c main_v4) (V c main_v5)) := by
  show (cfg2.win 6).cut (grid2.coords t) ((dat2 V c).after 6 t) = _
  rw [after2_6]
  unfold out2_6
  rw [View.canon_unit_zero zeros2]
  simp only [View.ld_unit_zero (S := S2000x128) zeros2, View.ld_unit_zero (S := S1x128) zeros2]
  rw [pay2_fun]
  funext j
  show Cert.GCN.finS (V c main_v45 (((cfg2.win 0).blk t).view.emb j)) (V c main_arg0 (((cfg2.win 1).blk t).view.emb j))
        (V c main_v49 (((cfg2.win 2).blk t).view.emb (ix2 (0 : Fin 1) (j 1))))
        (V c main_v58 (((cfg2.win 3).blk t).view.emb (ix2 (0 : Fin 1) (j 1))))
        (V c main_v4 (((cfg2.win 4).blk t).view.emb (ix2 (0 : Fin 1) (j 1))))
        (V c main_v5 (((cfg2.win 5).blk t).view.emb (ix2 (0 : Fin 1) (j 1))))
      = Cert.GCN.finS (V c main_v45 (((cfg2.win 6).blk t).view.emb j)) (V c main_arg0 (((cfg2.win 6).blk t).view.emb j))
        (V c main_v49 (ix2 (0 : Fin 1) ((((cfg2.win 6).blk t).view.emb j) 1)))
        (V c main_v58 (ix2 (0 : Fin 1) ((((cfg2.win 6).blk t).view.emb j) 1)))
        (V c main_v4 (ix2 (0 : Fin 1) ((((cfg2.win 6).blk t).view.emb j) 1)))
        (V c main_v5 (ix2 (0 : Fin 1) ((((cfg2.win 6).blk t).view.emb j) 1)))
  exact finS_congr (congrArg (fun i => V c main_v45 i) (emb2_0 t j)) (congrArg (fun i => V c main_arg0 i) (emb2_1 t j))
    (congrArg (fun i => V c main_v49 i) (emb2_2 t j)) (congrArg (fun i => V c main_v58 i) (emb2_3 t j))
    (congrArg (fun i => V c main_v4 i) (emb2_4 t j)) (congrArg (fun i => V c main_v5 i) (emb2_5 t j))

/-- An index of the array lies in a grid point's result block iff each coordinate lies in the block's range. -/
theorem mem_blk2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v59).slice (win2_6.rect t)).set ↔ _
  rw [View.set_slice_whole, Rect.mem_set_unit]
  exact Iff.rfl

/-- Every index lies in some grid point's result block: row `r` lies in block `r / 2000`. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto2 ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE FINAL STEP'S RESULT ARRAY: `finS` of the two operand arrays at the index and of the mean, variance, scale and
    shift rows at the index's column. -/
theorem arr2_6 : (Gen.dat2 (F := Ideal) V c).arrAt 6 cfg2.N
      = fun i => Cert.GCN.finS (V c main_v45 i) (V c main_arg0 i) (V c main_v49 (ix2 (0 : Fin 1) (i 1)))
          (V c main_v58 (ix2 (0 : Fin 1) (i 1))) (V c main_v4 (ix2 (0 : Fin 1) (i 1))) (V c main_v5 (ix2 (0 : Fin 1) (i 1))) :=
  (dat2 (F := Ideal) V c).arrAt_eq_of_cover 6
    (G2 (V c main_v45) (V c main_arg0) (V c main_v49) (V c main_v58) (V c main_v4) (V c main_v5))
    (fun t _ => flushed2_eq V c t) cover2

end Cert.KernelIdeal.PointValue
end
-- ==== Proof.KValue.lean ====
/-
  The kernel program's result buffer, read back through its six segments to the thirteen arguments. The contents at each
  segment boundary are the generated frame's `W1 … W6`: a stretch of host operations is read one operation at a time
  (`StableHlo.after`), a pallas_call's output array is the whole-array function of its input arrays; the result is
  `KDefs.outK` of the launch contents of the arguments.
-/
import proofs.«133739_j13022340842268_2_alg».proof.Proof.Gen.KernelIdeal.Frame
import proofs.«133739_j13022340842268_2_alg».proof.Proof.KDefs
import proofs.«133739_j13022340842268_2_alg».proof.Proof.ProjValue
import proofs.«133739_j13022340842268_2_alg».proof.Proof.PointValue
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.KDefs
open Idealize.ShloMosaic Idealize.ShloMosaic.TcCoe Idealize.SL.Sem Idealize.ShloMosaic.StableHlo Idealize.ShloMosaic.ValueIdx

/-- Host operations run one after another: a list's effect is its first part's, then the rest's. -/
theorem after_append {Val : EltTy → Type} (ops1 ops2 : List (HloOp τ sig Val)) (V : Valuation τ sig Val) :
    StableHlo.after (ops1 ++ ops2) V = StableHlo.after ops2 (StableHlo.after ops1 V) := by
  induction ops1 generalizing V with
  | nil => rfl
  | cons op ops ih => exact ih _

/-! ## The stretch between the first and the second pallas_call, from any contents `V`

Its first forty operations gather the three edge-side projections and form the gate and the weighted gate; its last seven
concatenate them, scatter-add by destination node, and slice the two column halves. -/

section Stretch1
variable (V : Valuation τ sig (Elt Ideal))

set_option maxHeartbeats 16000000 in
theorem pre_v29 : StableHlo.after (List.take 40 (hostOps1 (F := Ideal))) V (Proc.devRef .tc main_v29)
    = gateK (V (Proc.devRef .tc main_v6_2)) (V (Proc.devRef .tc main_v6_3)) (V (Proc.devRef .tc main_arg11)) (V (Proc.devRef .tc main_arg12)) := by
  simp only [hostOps1, List.take_succ_cons, List.take_zero]
  after_results_simp
  unfold gateK normIdx; rfl

set_option maxHeartbeats 16000000 in
theorem pre_v38 : StableHlo.after (List.take 40 (hostOps1 (F := Ideal))) V (Proc.devRef .tc main_v38)
    = mulf (gateK (V (Proc.devRef .tc main_v6_2)) (V (Proc.devRef .tc main_v6_3)) (V (Proc.devRef .tc main_arg11)) (V (Proc.devRef .tc main_arg12)))
        (extf .f32 (Host.gather gather_S50000x128_S800000x1_S800000x128_1_0_n_n_0_1_1128 (V (Proc.devRef .tc main_v6_1)) (normIdx (V (Proc.devRef .tc main_arg11)))) bitsLt_bf16_f32) := by
  simp only [hostOps1, List.take_succ_cons, List.take_zero]
  after_results_simp
  unfold gateK normIdx; rfl

set_option maxHeartbeats 16000000 in
theorem pre_arg12 : StableHlo.after (List.take 40 (hostOps1 (F := Ideal))) V (Proc.devRef .tc main_arg12) = V (Proc.devRef .tc main_arg12) := by
  simp only [hostOps1, List.take_succ_cons, List.take_zero]
  after_results_simp

set_option maxHeartbeats 4000000 in
theorem post_v43 : StableHlo.after (List.drop 40 (hostOps1 (F := Ideal))) V (Proc.devRef .tc main_v43)
    = (extractStridedSlice S50000x128 ![0, 0]
        (Host.scatterAdd (F := Ideal) scatter_S50000x256_S800000x1_S800000x256_1_0_0_1
          (broadcastInDim S50000x256 ![] bcast_S_S50000x256 (constant (F := Ideal) S_ .f32 0x00000000#32))
          (broadcastInDim S800000x1 ![0] bcast_S800000_S800000x1_0 (V (Proc.devRef .tc main_arg12)))
          (concatenate S800000x256 1 [⟨S800000x128, V (Proc.devRef .tc main_v38)⟩, ⟨S800000x128, V (Proc.devRef .tc main_v29)⟩]
            concatenates_S800000x128_S800000x128_S800000x256_d1)) slices_S50000x256_S50000x128_0_0 : FVec Ideal S50000x128 .f32) := by
  simp only [hostOps1, List.drop_succ_cons, List.drop_zero]
  after_results_simp

set_option maxHeartbeats 4000000 in
theorem post_v44 : StableHlo.after (List.drop 40 (hostOps1 (F := Ideal))) V (Proc.devRef .tc main_v44)
    = (extractStridedSlice S50000x128 ![0, 128]
        (Host.scatterAdd (F := Ideal) scatter_S50000x256_S800000x1_S800000x256_1_0_0_1
          (broadcastInDim S50000x256 ![] bcast_S_S50000x256 (constant (F := Ideal) S_ .f32 0x00000000#32))
          (broadcastInDim S800000x1 ![0] bcast_S800000_S800000x1_0 (V (Proc.devRef .tc main_arg12)))
          (concatenate S800000x256 1 [⟨S800000x128, V (Proc.devRef .tc main_v38)⟩, ⟨S800000x128, V (Proc.devRef .tc main_v29)⟩]
            concatenates_S800000x128_S800000x128_S800000x256_d1)) slices_S50000x256_S50000x128_0_128 : FVec Ideal S50000x128 .f32) := by
  simp only [hostOps1, List.drop_succ_cons, List.drop_zero]
  after_results_simp

theorem stretch1_split : StableHlo.after (hostOps1 (F := Ideal)) V
    = StableHlo.after (List.drop 40 (hostOps1 (F := Ideal))) (StableHlo.after (List.take 40 (hostOps1 (F := Ideal))) V) := by
  rw [← after_append, List.take_append_drop]

theorem stretch1_v43 : StableHlo.after (hostOps1 (F := Ideal)) V (Proc.devRef .tc main_v43)
    = numK (V (Proc.devRef .tc main_v6_1)) (V (Proc.devRef .tc main_v6_2)) (V (Proc.devRef .tc main_v6_3)) (V (Proc.devRef .tc main_arg11)) (V (Proc.devRef .tc main_arg12)) := by
  rw [stretch1_split, post_v43, pre_v38, pre_v29, pre_arg12]; rfl

theorem stretch1_v44 : StableHlo.after (hostOps1 (F := Ideal)) V (Proc.devRef .tc main_v44)
    = denK (V (Proc.devRef .tc main_v6_1)) (V (Proc.devRef .tc main_v6_2)) (V (Proc.devRef .tc main_v6_3)) (V (Proc.devRef .tc main_arg11)) (V (Proc.devRef .tc main_arg12)) := by
  rw [stretch1_split, post_v44, pre_v38, pre_v29, pre_arg12]; rfl

set_option maxHeartbeats 16000000 in
theorem stretch1_v6_0 : StableHlo.after (hostOps1 (F := Ideal)) V (Proc.devRef .tc main_v6_0) = V (Proc.devRef .tc main_v6_0) := by
  after_results_simp
set_option maxHeartbeats 16000000 in
theorem stretch1_arg0 : StableHlo.after (hostOps1 (F := Ideal)) V (Proc.devRef .tc main_arg0) = V (Proc.devRef .tc main_arg0) := by
  after_results_simp
set_option maxHeartbeats 16000000 in
theorem stretch1_v4 : StableHlo.after (hostOps1 (F := Ideal)) V (Proc.devRef .tc main_v4) = V (Proc.devRef .tc main_v4) := by
  after_results_simp
set_option maxHeartbeats 16000000 in
theorem stretch1_v5 : StableHlo.after (hostOps1 (F := Ideal)) V (Proc.devRef .tc main_v5) = V (Proc.devRef .tc main_v5) := by
  after_results_simp

end Stretch1

/-! ## The first stretch (six vectors reshaped to rows) and the third (column mean and variance), from any contents `V` -/

section Stretch02
variable (V : Valuation τ sig (Elt Ideal))
theorem stretch0_v0 : StableHlo.after (hostOps0 (F := Ideal)) V (Proc.devRef .tc main_v0) = row (V (Proc.devRef .tc main_arg2)) := by
  after_results; rfl
theorem stretch0_v1 : StableHlo.after (hostOps0 (F := Ideal)) V (Proc.devRef .tc main_v1) = row (V (Proc.devRef .tc main_arg4)) := by
  after_results; rfl
theorem stretch0_v2 : StableHlo.after (hostOps0 (F := Ideal)) V (Proc.devRef .tc main_v2) = row (V (Proc.devRef .tc main_arg6)) := by
  after_results; rfl
theorem stretch0_v3 : StableHlo.after (hostOps0 (F := Ideal)) V (Proc.devRef .tc main_v3) = row (V (Proc.devRef .tc main_arg8)) := by
  after_results; rfl
theorem stretch0_v4 : StableHlo.after (hostOps0 (F := Ideal)) V (Proc.devRef .tc main_v4) = row (V (Proc.devRef .tc main_arg9)) := by
  after_results; rfl
theorem stretch0_v5 : StableHlo.after (hostOps0 (F := Ideal)) V (Proc.devRef .tc main_v5) = row (V (Proc.devRef .tc main_arg10)) := by
  after_results; rfl
theorem stretch0_arg0 : StableHlo.after (hostOps0 (F := Ideal)) V (Proc.devRef .tc main_arg0) = V (Proc.devRef .tc main_arg0) := by
  after_results
theorem stretch0_arg1 : StableHlo.after (hostOps0 (F := Ideal)) V (Proc.devRef .tc main_arg1) = V (Proc.devRef .tc main_arg1) := by
  after_results
theorem stretch0_arg3 : StableHlo.after (hostOps0 (F := Ideal)) V (Proc.devRef .tc main_arg3) = V (Proc.devRef .tc main_arg3) := by
  after_results
theorem stretch0_arg5 : StableHlo.after (hostOps0 (F := Ideal)) V (Proc.devRef .tc main_arg5) = V (Proc.devRef .tc main_arg5) := by
  after_results
theorem stretch0_arg7 : StableHlo.after (hostOps0 (F := Ideal)) V (Proc.devRef .tc main_arg7) = V (Proc.devRef .tc main_arg7) := by
  after_results
theorem stretch0_arg11 : StableHlo.after (hostOps0 (F := Ideal)) V (Proc.devRef .tc main_arg11) = V (Proc.devRef .tc main_arg11) := by
  after_results
theorem stretch0_arg12 : StableHlo.after (hostOps0 (F := Ideal)) V (Proc.devRef .tc main_arg12) = V (Proc.devRef .tc main_arg12) := by
  after_results

set_option maxHeartbeats 4000000 in
theorem stretch2_v49 : StableHlo.after (hostOps2 (F := Ideal)) V (Proc.devRef .tc main_v49) = meanK (V (Proc.devRef .tc main_v45)) := by
  after_results_simp <;> (unfold meanK; rfl)
set_option maxHeartbeats 4000000 in
theorem stretch2_v58 : StableHlo.after (hostOps2 (F := Ideal)) V (Proc.devRef .tc main_v58) = varK (V (Proc.devRef .tc main_v45)) := by
  after_results_simp <;> (unfold varK meanK; rfl)
set_option maxHeartbeats 4000000 in
theorem stretch2_v45 : StableHlo.after (hostOps2 (F := Ideal)) V (Proc.devRef .tc main_v45) = V (Proc.devRef .tc main_v45) := by
  after_results_simp
set_option maxHeartbeats 4000000 in
theorem stretch2_arg0 : StableHlo.after (hostOps2 (F := Ideal)) V (Proc.devRef .tc main_arg0) = V (Proc.devRef .tc main_arg0) := by
  after_results_simp
set_option maxHeartbeats 4000000 in
theorem stretch2_v4 : StableHlo.after (hostOps2 (F := Ideal)) V (Proc.devRef .tc main_v4) = V (Proc.devRef .tc main_v4) := by
  after_results_simp
set_option maxHeartbeats 4000000 in
theorem stretch2_v5 : StableHlo.after (hostOps2 (F := Ideal)) V (Proc.devRef .tc main_v5) = V (Proc.devRef .tc main_v5) := by
  after_results_simp

end Stretch02

/-! ## The contents at the six boundaries, read back to the launch memory -/

variable (m : (ℓ : Loc nD τ sig) → Buf (Elt Ideal) ℓ) (ρ : Dev nD → PrngReg) (c : Dev nD)

/-! ### After the first stretch -/
theorem L1_arg0 : W1 m ρ c (Proc.devRef .tc main_arg0) = m ((c : Thread nD τ).loc main_arg0) := stretch0_arg0 (W0 m ρ c)
theorem L1_arg1 : W1 m ρ c (Proc.devRef .tc main_arg1) = m ((c : Thread nD τ).loc main_arg1) := stretch0_arg1 (W0 m ρ c)
theorem L1_arg3 : W1 m ρ c (Proc.devRef .tc main_arg3) = m ((c : Thread nD τ).loc main_arg3) := stretch0_arg3 (W0 m ρ c)
theorem L1_arg5 : W1 m ρ c (Proc.devRef .tc main_arg5) = m ((c : Thread nD τ).loc main_arg5) := stretch0_arg5 (W0 m ρ c)
theorem L1_arg7 : W1 m ρ c (Proc.devRef .tc main_arg7) = m ((c : Thread nD τ).loc main_arg7) := stretch0_arg7 (W0 m ρ c)
theorem L1_arg11 : W1 m ρ c (Proc.devRef .tc main_arg11) = m ((c : Thread nD τ).loc main_arg11) := stretch0_arg11 (W0 m ρ c)
theorem L1_arg12 : W1 m ρ c (Proc.devRef .tc main_arg12) = m ((c : Thread nD τ).loc main_arg12) := stretch0_arg12 (W0 m ρ c)
theorem L1_v0 : W1 m ρ c (Proc.devRef .tc main_v0) = row (m ((c : Thread nD τ).loc main_arg2)) := stretch0_v0 (W0 m ρ c)
theorem L1_v1 : W1 m ρ c (Proc.devRef .tc main_v1) = row (m ((c : Thread nD τ).loc main_arg4)) := stretch0_v1 (W0 m ρ c)
theorem L1_v2 : W1 m ρ c (Proc.devRef .tc main_v2) = row (m ((c : Thread nD τ).loc main_arg6)) := stretch0_v2 (W0 m ρ c)
theorem L1_v3 : W1 m ρ c (Proc.devRef .tc main_v3) = row (m ((c : Thread nD τ).loc main_arg8)) := stretch0_v3 (W0 m ρ c)
theorem L1_v4 : W1 m ρ c (Proc.devRef .tc main_v4) = row (m ((c : Thread nD τ).loc main_arg9)) := stretch0_v4 (W0 m ρ c)
theorem L1_v5 : W1 m ρ c (Proc.devRef .tc main_v5) = row (m ((c : Thread nD τ).loc main_arg10)) := stretch0_v5 (W0 m ρ c)

/-! ### After the first pallas_call: the four projections -/
theorem L2_v6_0 : W2 m ρ c (Proc.devRef .tc main_v6_0) = Cert.GCN.lin (m ((c : Thread nD τ).loc main_arg0)) (m ((c : Thread nD τ).loc main_arg1)) (row (m ((c : Thread nD τ).loc main_arg2))) := by
  refine (W2_arr m ρ c 9).trans ?_
  rw [ProjValue.arr0_9 (V1 m ρ) c]
  dsimp only [V1]
  rw [L1_arg0, L1_arg1, L1_v0]
theorem L2_v6_1 : W2 m ρ c (Proc.devRef .tc main_v6_1) = Cert.GCN.lin (m ((c : Thread nD τ).loc main_arg0)) (m ((c : Thread nD τ).loc main_arg3)) (row (m ((c : Thread nD τ).loc main_arg4))) := by
  refine (W2_arr m ρ c 10).trans ?_
  rw [ProjValue.arr0_10 (V1 m ρ) c]
  dsimp only [V1]
  rw [L1_arg0, L1_arg3, L1_v1]
theorem L2_v6_2 : W2 m ρ c (Proc.devRef .tc main_v6_2) = Cert.GCN.lin (m ((c : Thread nD τ).loc main_arg0)) (m ((c : Thread nD τ).loc main_arg5)) (row (m ((c : Thread nD τ).loc main_arg6))) := by
  refine (W2_arr m ρ c 11).trans ?_
  rw [ProjValue.arr0_11 (V1 m ρ) c]
  dsimp only [V1]
  rw [L1_arg0, L1_arg5, L1_v2]
theorem L2_v6_3 : W2 m ρ c (Proc.devRef .tc main_v6_3) = Cert.GCN.lin (m ((c : Thread nD τ).loc main_arg0)) (m ((c : Thread nD τ).loc main_arg7)) (row (m ((c : Thread nD τ).loc main_arg8))) := by
  refine (W2_arr m ρ c 12).trans ?_
  rw [ProjValue.arr0_12 (V1 m ρ) c]
  dsimp only [V1]
  rw [L1_arg0, L1_arg7, L1_v3]
theorem L2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (L1_arg0 m ρ c)
theorem L2_arg11 : W2 m ρ c (Proc.devRef .tc main_arg11) = m ((c : Thread nD τ).loc main_arg11) :=
  (W2_of_ne m ρ c main_arg11 (by decide)).trans (L1_arg11 m ρ c)
theorem L2_arg12 : W2 m ρ c (Proc.devRef .tc main_arg12) = m ((c : Thread nD τ).loc main_arg12) :=
  (W2_of_ne m ρ c main_arg12 (by decide)).trans (L1_arg12 m ρ c)
theorem L2_v4 : W2 m ρ c (Proc.devRef .tc main_v4) = row (m ((c : Thread nD τ).loc main_arg9)) :=
  (W2_of_ne m ρ c main_v4 (by decide)).trans (L1_v4 m ρ c)
theorem L2_v5 : W2 m ρ c (Proc.devRef .tc main_v5) = row (m ((c : Thread nD τ).loc main_arg10)) :=
  (W2_of_ne m ρ c main_v5 (by decide)).trans (L1_v5 m ρ c)

/-! ### After the second stretch: the numerator and the denominator -/
theorem L3_v43 : W3 m ρ c (Proc.devRef .tc main_v43) = numK (Cert.GCN.lin (m ((c : Thread nD τ).loc main_arg0)) (m ((c : Thread nD τ).loc main_arg3)) (row (m ((c : Thread nD τ).loc main_arg4)))) (Cert.GCN.lin (m ((c : Thread nD τ).loc main_arg0)) (m ((c : Thread nD τ).loc main_arg5)) (row (m ((c : Thread nD τ).loc main_arg6)))) (Cert.GCN.lin (m ((c : Thread nD τ).loc main_arg0)) (m ((c : Thread nD τ).loc main_arg7)) (row (m ((c : Thread nD τ).loc main_arg8)))) (m ((c : Thread nD τ).loc main_arg11)) (m ((c : Thread nD τ).loc main_arg12)) := by
  refine (stretch1_v43 (W2 m ρ c)).trans ?_
  rw [L2_v6_1, L2_v6_2, L2_v6_3, L2_arg11, L2_arg12]
theorem L3_v44 : W3 m ρ c (Proc.devRef .tc main_v44) = denK (Cert.GCN.lin (m ((c : Thread nD τ).loc main_arg0)) (m ((c : Thread nD τ).loc main_arg3)) (row (m ((c : Thread nD τ).loc main_arg4)))) (Cert.GCN.lin (m ((c : Thread nD τ).loc main_arg0)) (m ((c : Thread nD τ).loc main_arg5)) (row (m ((c : Thread nD τ).loc main_arg6)))) (Cert.GCN.lin (m ((c : Thread nD τ).loc main_arg0)) (m ((c : Thread nD τ).loc main_arg7)) (row (m ((c : Thread nD τ).loc main_arg8)))) (m ((c : Thread nD τ).loc main_arg11)) (m ((c : Thread nD τ).loc main_arg12)) := by
  refine (stretch1_v44 (W2 m ρ c)).trans ?_
  rw [L2_v6_1, L2_v6_2, L2_v6_3, L2_arg11, L2_arg12]
theorem L3_v6_0 : W3 m ρ c (Proc.devRef .tc main_v6_0) = (Cert.GCN.lin (m ((c : Thread nD τ).loc main_arg0)) (m ((c : Thread nD τ).loc main_arg1)) (row (m ((c : Thread nD τ).loc main_arg2)))) :=
  (stretch1_v6_0 (W2 m ρ c)).trans (L2_v6_0 m ρ c)
theorem L3_arg0 : W3 m ρ c (Proc.devRef .tc main_arg0) = m ((c : Thread nD τ).loc main_arg0) := (stretch1_arg0 (W2 m ρ c)).trans (L2_arg0 m ρ c)
theorem L3_v4 : W3 m ρ c (Proc.devRef .tc main_v4) = row (m ((c : Thread nD τ).loc main_arg9)) := (stretch1_v4 (W2 m ρ c)).trans (L2_v4 m ρ c)
theorem L3_v5 : W3 m ρ c (Proc.devRef .tc main_v5) = row (m ((c : Thread nD τ).loc main_arg10)) := (stretch1_v5 (W2 m ρ c)).trans (L2_v5 m ρ c)

/-! ### After the second pallas_call: the gated aggregate -/
theorem L4_v45 : W4 m ρ c (Proc.devRef .tc main_v45) = HK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  refine (W4_arr m ρ c 4).trans ?_
  rw [PointValue.arr1_4 (V3 m ρ) c]
  dsimp only [V3]
  rw [L3_v6_0, L3_arg0, L3_v43, L3_v44]
  rfl
theorem L4_arg0 : W4 m ρ c (Proc.devRef .tc main_arg0) = m ((c : Thread nD τ).loc main_arg0) :=
  ((W4_arr m ρ c 1).trans (((dat1 (V3 m ρ) c).arrAt_in 1 rfl _).trans (A_eq1 (V3 m ρ) c 1))).trans (L3_arg0 m ρ c)
theorem L4_v4 : W4 m ρ c (Proc.devRef .tc main_v4) = row (m ((c : Thread nD τ).loc main_arg9)) := (W4_of_ne m ρ c main_v4 (by decide)).trans (L3_v4 m ρ c)
theorem L4_v5 : W4 m ρ c (Proc.devRef .tc main_v5) = row (m ((c : Thread nD τ).loc main_arg10)) := (W4_of_ne m ρ c main_v5 (by decide)).trans (L3_v5 m ρ c)

/-! ### After the third stretch: the column statistics -/
theorem L5_v49 : W5 m ρ c (Proc.devRef .tc main_v49) = meanK (HK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))) := by
  refine (stretch2_v49 (W4 m ρ c)).trans ?_
  rw [L4_v45]
theorem L5_v58 : W5 m ρ c (Proc.devRef .tc main_v58) = varK (HK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))) := by
  refine (stretch2_v58 (W4 m ρ c)).trans ?_
  rw [L4_v45]
theorem L5_v45 : W5 m ρ c (Proc.devRef .tc main_v45) = HK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := (stretch2_v45 (W4 m ρ c)).trans (L4_v45 m ρ c)
theorem L5_arg0 : W5 m ρ c (Proc.devRef .tc main_arg0) = m ((c : Thread nD τ).loc main_arg0) := (stretch2_arg0 (W4 m ρ c)).trans (L4_arg0 m ρ c)
theorem L5_v4 : W5 m ρ c (Proc.devRef .tc main_v4) = row (m ((c : Thread nD τ).loc main_arg9)) := (stretch2_v4 (W4 m ρ c)).trans (L4_v4 m ρ c)
theorem L5_v5 : W5 m ρ c (Proc.devRef .tc main_v5) = row (m ((c : Thread nD τ).loc main_arg10)) := (stretch2_v5 (W4 m ρ c)).trans (L4_v5 m ρ c)

/-! ### After the third pallas_call: the result -/
theorem out_read : W6 m ρ c (Proc.devRef .tc main_v59) = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 6).trans ?_
  rw [PointValue.arr2_6 (V5 m ρ) c]
  dsimp only [V5]
  rw [L5_v45, L5_arg0, L5_v49, L5_v58, L5_v4, L5_v5]
  rfl

end Cert.KernelIdeal.KValue

end
-- ==== Proof.GatePos.lean ====
/-
  Finiteness of the inputs and its two consequences for the gated graph convolution.
  From the precondition (every float input has absolute value below +∞) the node features, the two gate
  weight matrices and their biases hold real numbers; a node projection X·W+b of real arrays is real at
  every entry (a finite sum of products of reals plus a real); and the gate 1/(1+exp(−(d+e))) of two real
  numbers d, e is the real number (1+exp(−(d+e)))⁻¹, which is strictly positive.
-/
import proofs.«133739_j13022340842268_2_alg».proof.Defs
import proofs.«133739_j13022340842268_2_alg».proof.Proof.Spec
import proofs.«133739_j13022340842268_2_alg».proof.Proof.Gen.Pre_finite_inputs
import Idealize.ShloMosaic.PureOps.Ideal.Laws
import Idealize.ShloMosaic.Lib.ValueIdx
import Idealize.ShloMosaic.Lib.Pipeline.Value
import Idealize.ShloMosaic.Lib.ReduceAll
import Idealize.ShloMosaic.Lib.IdealHost

noncomputable section

namespace Cert.GCN.GatePos

open Idealize.ShloMosaic Idealize.ShloMosaic.ValueIdx Idealize.SL.Sem

/-! ## The gate is positive -/

/-- For real `d`, `e` the extended-real expression `1 / (1 + exp (-(d + e)))` is the real `(1 + exp (-(d+e)))⁻¹`,
    which is positive: the exponential of a real is a positive real, so the denominator is a real above one. -/
theorem sigmoid_pos (d e : ℝ) :
    (0 : EReal) < Ideal.div 1 (1 + Ideal.exp (-((d : EReal) + (e : EReal)))) := by
  have hy : (1 + Real.exp (-(d + e)) : ℝ) ≠ 0 := by positivity
  have h1 : Ideal.exp (-((d : EReal) + (e : EReal))) = ((Real.exp (-(d + e)) : ℝ) : EReal) := by
    rw [← EReal.coe_add, ← EReal.coe_neg]; rfl
  rw [h1, ← EReal.coe_one, ← EReal.coe_add, Ideal.div_coe hy, ← EReal.coe_mul, one_mul]
  exact EReal.coe_pos.mpr (by positivity)

section Ref
variable [Cert.ReferenceIdeal.Facts₀]
open Cert.ReferenceIdeal.Facts₀

/-- The gate of the reference, `1 / (1 + exp (-(DX[src] + EX[dst])))`, read at an edge and a feature: each gathered
    entry is an entry of a real array, so the value is the sigmoid of a real number. -/
theorem gate_pos (DX EX : FVec Ideal Cert.ReferenceIdeal.S50000x128 .f32)
    (hD : ∀ i, ∃ r : ℝ, DX i = (r : EReal)) (hE : ∀ i, ∃ r : ℝ, EX i = (r : EReal))
    (i1 i2 : IVec Cert.ReferenceIdeal.S800000x1 32) (j : Cert.ReferenceIdeal.S800000x128.Idx) :
    0 < Host.divf (F := Ideal)
      (broadcastInDim Cert.ReferenceIdeal.S800000x128 ![] bcast_S_S800000x128 (constant (F := Ideal) Cert.ReferenceIdeal.S_ .f32 0x3F800000#32))
      (addf (broadcastInDim Cert.ReferenceIdeal.S800000x128 ![] bcast_S_S800000x128 (constant (F := Ideal) Cert.ReferenceIdeal.S_ .f32 0x3F800000#32))
        (Host.exp (Host.negf (addf
          (Host.gather Cert.ReferenceIdeal.gather_S50000x128_S800000x1_S800000x128_1_0_n_n_0_1_1128 DX i1)
          (Host.gather Cert.ReferenceIdeal.gather_S50000x128_S800000x1_S800000x128_1_0_n_n_0_1_1128 EX i2))))) j := by
  obtain ⟨d, hd⟩ := hD (Cert.ReferenceIdeal.gather_S50000x128_S800000x1_S800000x128_1_0_n_n_0_1_1128.operandIdx j i1)
  obtain ⟨e, he⟩ := hE (Cert.ReferenceIdeal.gather_S50000x128_S800000x1_S800000x128_1_0_n_n_0_1_1128.operandIdx j i2)
  show (0 : EReal) < Ideal.div (Ideal.ofBits .f32 0x3F800000#32) (Ideal.ofBits .f32 0x3F800000#32 + Ideal.exp (-(
    DX (Cert.ReferenceIdeal.gather_S50000x128_S800000x1_S800000x128_1_0_n_n_0_1_1128.operandIdx j i1) +
    EX (Cert.ReferenceIdeal.gather_S50000x128_S800000x1_S800000x128_1_0_n_n_0_1_1128.operandIdx j i2))))
  rw [hd, he, Ideal.ofBits_one_f32]
  exact sigmoid_pos d e

/-! ## A node projection of real arrays is real -/

/-- A finite sum of real numbers, each read as an extended real, is the real sum read as an extended real. -/
theorem sum_coe {ι : Type} (s : Finset ι) (f : ι → ℝ) :
    ∑ k ∈ s, ((f k : ℝ) : EReal) = ((∑ k ∈ s, f k : ℝ) : EReal) := by
  classical
  refine Finset.induction_on s (by simp) fun a s ha ih => ?_
  rw [Finset.sum_insert ha, Finset.sum_insert ha, ih, EReal.coe_add]

/-- Every entry of `X · W + b` is a real number when the entries of `X`, `W`, `b` are: the entry is a finite sum of
    products of an entry of `X` by an entry of `W`, plus an entry of `b` (whichever entries the contraction and the two
    broadcasts read). -/
theorem lin_finite (X : FVec Ideal Cert.ReferenceIdeal.S50000x128 .f32) (W : FVec Ideal Cert.ReferenceIdeal.S128x128 .f32)
    (b : FVec Ideal Cert.ReferenceIdeal.S128 .f32)
    (hX : ∀ i, ∃ r : ℝ, X i = (r : EReal)) (hW : ∀ i, ∃ r : ℝ, W i = (r : EReal)) (hb : ∀ i, ∃ r : ℝ, b i = (r : EReal)) :
    ∀ i, ∃ r : ℝ, (addf (Host.dotGeneral (F := Ideal) Cert.ReferenceIdeal.dot_S50000x128_S128x128_S50000x128_1_0_0_1_n_n none X W)
      (broadcastInDim Cert.ReferenceIdeal.S50000x128 ![0, 1] bcast_S1x128_S50000x128_0_1
        (broadcastInDim Cert.ReferenceIdeal.S1x128 ![1] bcast_S128_S1x128_1 b))) i = (r : EReal) := by
  choose fX hfX using hX
  choose fW hfW using hW
  intro i
  obtain ⟨rb, hrb⟩ : ∃ r : ℝ, (broadcastInDim Cert.ReferenceIdeal.S50000x128 ![0, 1] bcast_S1x128_S50000x128_0_1
      (broadcastInDim Cert.ReferenceIdeal.S1x128 ![1] bcast_S128_S1x128_1 b)) i = (r : EReal) := hb _
  have hdot : Host.dotGeneral (F := Ideal) Cert.ReferenceIdeal.dot_S50000x128_S128x128_S50000x128_1_0_0_1_n_n none X W i
      = ∑ k, X (Cert.ReferenceIdeal.dot_S50000x128_S128x128_S50000x128_1_0_0_1_n_n.lhsIdx i k)
          * W (Cert.ReferenceIdeal.dot_S50000x128_S128x128_S50000x128_1_0_0_1_n_n.rhsIdx i k) :=
    Ideal.dotGeneral_apply _ none .single X W i
  refine ⟨(∑ k, fX (Cert.ReferenceIdeal.dot_S50000x128_S128x128_S50000x128_1_0_0_1_n_n.lhsIdx i k)
      * fW (Cert.ReferenceIdeal.dot_S50000x128_S128x128_S50000x128_1_0_0_1_n_n.rhsIdx i k)) + rb, ?_⟩
  show Host.dotGeneral (F := Ideal) Cert.ReferenceIdeal.dot_S50000x128_S128x128_S50000x128_1_0_0_1_n_n none X W i
    + (broadcastInDim Cert.ReferenceIdeal.S50000x128 ![0, 1] bcast_S1x128_S50000x128_0_1
      (broadcastInDim Cert.ReferenceIdeal.S1x128 ![1] bcast_S128_S1x128_1 b)) i = _
  rw [hdot, hrb, EReal.coe_add, ← sum_coe]
  refine congrArg (· + (rb : EReal)) (Finset.sum_congr rfl fun k _ => ?_)
  rw [hfX, hfW, EReal.coe_mul]

end Ref

/-! ## The precondition makes the float inputs real -/

section Pre

/-- The rank-0 shape has one index. -/
local instance : Subsingleton (⟨0, ![]⟩ : Shape).Idx := ⟨fun a b => funext fun d => d.elim0⟩

/-- The f32 pattern `0x7F800000` is `+∞`. -/
theorem ofBits_inf_f32 : Ideal.ofBits .f32 0x7F800000#32 = (⊤ : EReal) := by
  simp [Ideal.ofBits, Ideal.ieee]

/-- An extended real whose absolute value `max x (-x)` is below `+∞` is a real number: it is neither `+∞` nor `-∞`. -/
theorem real_of_abs_lt_top (x : EReal) (h : max x (-x) < ⊤) : ∃ r : ℝ, x = (r : EReal) := by
  obtain ⟨h1, h2⟩ := max_lt_iff.1 h
  have hb : x ≠ ⊥ := by
    intro hb; rw [hb, EReal.neg_bot] at h2; exact lt_irrefl _ h2
  exact ⟨x.toReal, (EReal.coe_toReal h1.ne hb).symm⟩

/-- One test of the precondition, `all (|x| < +∞)`, read back: if the conjunction over all entries is true, every
    entry of `x` is a real number. -/
theorem real_of_all_lt_inf {s : Shape} {axes : List (Fin s.rank)} (x : FVec Ideal s .f32)
    (bc : (⟨0, ![]⟩ : Shape).BroadcastsInDim s (![] : Fin 0 → Fin s.rank))
    (red : s.ReducesTo axes ⟨0, ![]⟩) (hS : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) red hS ix0 = 1#1) :
    ∀ i, ∃ r : ℝ, x i = (r : EReal) := by
  intro i
  have hi : Ideal.cmp .olt (max (x i) (-(x i))) (Ideal.ofBits .f32 0x7F800000#32) = 1#1 :=
    Host.reduce_andi_all _ _ red hS ix0 e i
  rw [ofBits_inf_f32] at hi
  refine real_of_abs_lt_top (x i) ?_
  by_contra hn
  have h0 : Ideal.cmp .olt (max (x i) (-(x i))) ⊤ = 0#1 := by
    show BitVec.ofBool (decide (max (x i) (-(x i)) < ⊤)) = 0#1
    rw [decide_eq_false hn]; rfl
  rw [h0] at hi
  exact absurd hi (by decide)

/-- The precondition (every float input has absolute value below `+∞`, all eleven tests true) makes the node features
    and the weights and biases of the two gate projections real at every entry. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  have h0 := congrFun (h c) ix0
  dsimp only [Cert.Pre_finite_inputs.fn, Cert.Pre_finite_inputs.fn_part1, Cert.Pre_finite_inputs.fn_part2,
    Cert.Pre_finite_inputs.fn_part3] at h0
  -- the conjunction of the eleven tests, peeled from the last test to the first
  obtain ⟨h48, -⟩ := IntOp.andi_eq_one.1 h0
  obtain ⟨h43, -⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, -⟩ := IntOp.andi_eq_one.1 h8
  exact ⟨real_of_all_lt_inf _ _ _ _ h3, real_of_all_lt_inf _ _ _ _ h27, real_of_all_lt_inf _ _ _ _ h32,
    real_of_all_lt_inf _ _ _ _ h37, real_of_all_lt_inf _ _ _ _ h42⟩

end Pre

end Cert.GCN.GatePos

end
-- ==== Proof.ScatterSums.lean ====
/-
  The host scatter-adds of the two programs read at an element, on the extended reals. A scatter-add's element is the
  operand's element plus the sum of the update elements that land on it; for a scatter of rows by one scalar index per
  row, update element `(e, f)` lands on `(idx[e, 0], f)` (the index read signed; a row outside the operand is
  dropped), so element `(n, g)` is the operand's plus the sum over the rows `e` with `idx[e, 0] = n` of the
  update's `(e, g)`. Two consequences: a column slice of the scatter-add of a concatenation `[a | b]` is the
  scatter-add of the corresponding half; and a scatter-add of positive values into zeros is positive at a row exactly
  when the scatter-add of ones is — both say that some update row is sent to that row.
-/
import proofs.«133739_j13022340842268_2_alg».proof.KernelIdeal
import proofs.«133739_j13022340842268_2_alg».proof.ReferenceIdeal
import proofs.«133739_j13022340842268_2_alg».proof.Proof.Spec
import Idealize.ShloMosaic.PureOps.Ideal.Laws
import Idealize.ShloMosaic.Lib.ValueIdx
import Idealize.ShloMosaic.Lib.Pipeline.Value

noncomputable section

namespace Cert.GCN.ScatterSums

open Idealize.ShloMosaic Idealize.ShloMosaic.ValueIdx

/-! ## Re-indexing a sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## A scatter of rows: operand `[N, M]`, one scalar index per update row, updates `[E, M]`

Update element `(e, f)` goes to row `idx[e, 0]` (read signed), column `f`, when that row exists. -/

/-- The dimension numbers of a scatter of `E` rows of `M` columns into an operand of `N` rows: the updates' axis 1 is
    the window axis, the operand's axis 0 is the scattered (inserted) axis, the index vector is the scatter indices' axis 1. -/
abbrev rowDims (N E M : Nat) (wf : ScatterDims.WF ⟨2, ![N, M]⟩ ⟨2, ![E, 1]⟩ ⟨2, ![E, M]⟩ [1] [0] [0] 1) :
    ScatterDims ⟨2, ![N, M]⟩ ⟨2, ![E, 1]⟩ ⟨2, ![E, M]⟩ where
  updateWindowDims := [1]
  insertedWindowDims := [0]
  scatterDimsToOperandDims := [0]
  indexVectorDim := 1
  wf := wf

section Row
variable {N E M : Nat} (wf : ScatterDims.WF ⟨2, ![N, M]⟩ ⟨2, ![E, 1]⟩ ⟨2, ![E, M]⟩ [1] [0] [0] 1) {w : Nat}

/-- The row axis is inserted: no window coordinate on it. -/
theorem row_window0 (j : (⟨2, ![E, M]⟩ : Shape).Idx) : (rowDims N E M wf).window j 0 = 0 := rfl
/-- The column axis carries the update's column. -/
theorem row_window1 (j : (⟨2, ![E, M]⟩ : Shape).Idx) : (rowDims N E M wf).window j 1 = (j 1).val := rfl
/-- The column axis is not scattered: its start is zero. -/
theorem row_start1 (j : (⟨2, ![E, M]⟩ : Shape).Idx) (idx : IVec ⟨2, ![E, 1]⟩ w) : (rowDims N E M wf).start j idx 1 = 0 := rfl
/-- The scatter index an update element reads is its row's. -/
theorem row_siIdx (j : (⟨2, ![E, M]⟩ : Shape).Idx) (c : Fin (rowDims N E M wf).scatterDimsToOperandDims.length) :
    (rowDims N E M wf).siIdx j c = ix2 (j 0) 0 := by
  funext b
  match b with
  | ⟨0, _⟩ => rfl
  | ⟨1, _⟩ =>
    apply Fin.ext
    have hc : c.val < 1 := c.isLt
    show c.val = 0
    omega
/-- The start on the row axis is the update row's scatter index, read signed. -/
theorem row_start0 (j : (⟨2, ![E, M]⟩ : Shape).Idx) (idx : IVec ⟨2, ![E, 1]⟩ w) :
    (rowDims N E M wf).start j idx 0 = (idx (ix2 (j 0) 0)).toInt := by
  unfold ScatterDims.start
  rw [dif_pos (List.mem_singleton.2 rfl), row_siIdx]
  rfl

/-- Update element `j` lands on operand element `i` exactly when `j`'s row's scatter index is `i`'s row and the
    columns agree. -/
theorem row_resultIdx_iff (j : (⟨2, ![E, M]⟩ : Shape).Idx) (idx : IVec ⟨2, ![E, 1]⟩ w) (i : (⟨2, ![N, M]⟩ : Shape).Idx) :
    (rowDims N E M wf).resultIdx? j idx = some i ↔ (idx (ix2 (j 0) 0)).toInt = ((i 0).val : ℤ) ∧ (j 1).val = (i 1).val := by
  have hi0 : (i 0).val < N := (i 0).isLt
  have hi1 : (i 1).val < M := (i 1).isLt
  have hj1 : (j 1).val < M := (j 1).isLt
  have hs0 : (⟨2, ![N, M]⟩ : Shape).size 0 = N := rfl
  have hs1 : (⟨2, ![N, M]⟩ : Shape).size 1 = M := rfl
  unfold ScatterDims.resultIdx?
  split
  · next h =>
    rw [Option.some.injEq]
    constructor
    · intro hf
      have h0 := congrArg (fun f => (f 0).val) hf
      have h1 := congrArg (fun f => (f 1).val) hf
      simp only [row_start0, row_start1, row_window0, row_window1] at h0 h1
      have hh := (h 0).1
      rw [row_start0, row_window0] at hh
      constructor <;> omega
    · rintro ⟨h0, h1⟩
      funext a
      apply Fin.ext
      match a with
      | ⟨0, _⟩ =>
        show ((rowDims N E M wf).start j idx 0 + ((rowDims N E M wf).window j 0 : ℕ)).toNat = (i 0).val
        rw [row_start0, row_window0]; omega
      | ⟨1, _⟩ =>
        show ((rowDims N E M wf).start j idx 1 + ((rowDims N E M wf).window j 1 : ℕ)).toNat = (i 1).val
        rw [row_start1, row_window1]; omega
  · next h =>
    constructor
    · intro hf; exact absurd hf (by simp)
    · rintro ⟨h0, h1⟩
      exfalso; apply h
      intro a
      match a with
      | ⟨0, _⟩ =>
        show 0 ≤ (rowDims N E M wf).start j idx 0 + ((rowDims N E M wf).window j 0 : ℕ) ∧ (rowDims N E M wf).start j idx 0 + ((rowDims N E M wf).window j 0 : ℕ) < ((⟨2, ![N, M]⟩ : Shape).size 0 : ℕ)
        rw [row_start0, row_window0, hs0]; omega
      | ⟨1, _⟩ =>
        show 0 ≤ (rowDims N E M wf).start j idx 1 + ((rowDims N E M wf).window j 1 : ℕ) ∧ (rowDims N E M wf).start j idx 1 + ((rowDims N E M wf).window j 1 : ℕ) < ((⟨2, ![N, M]⟩ : Shape).size 1 : ℕ)
        rw [row_start1, row_window1, hs1]; omega

/-- The same with explicit coordinates. -/
theorem row_resultIdx_ix2_iff (e : Fin E) (f : Fin M) (idx : IVec ⟨2, ![E, 1]⟩ w) (n : Fin N) (g : Fin M) :
    (rowDims N E M wf).resultIdx? (ix2 e f) idx = some (ix2 n g) ↔ (idx (ix2 e 0)).toInt = (n.val : ℤ) ∧ f.val = g.val :=
  row_resultIdx_iff wf (ix2 e f) idx (ix2 n g)

/-- An element of the scatter-add of rows: the operand's element plus the sum, over the update rows whose scatter index
    is the element's row, of the update's element in the same column. -/
theorem row_scatterAdd_apply (x : (⟨2, ![N, M]⟩ : Shape).Idx → EReal) (idx : IVec ⟨2, ![E, 1]⟩ w)
    (upd : (⟨2, ![E, M]⟩ : Shape).Idx → EReal) (n : Fin N) (g : Fin M) :
    Ideal.hostScatterAdd (rowDims N E M wf) x idx upd (ix2 n g)
      = x (ix2 n g) + ∑ e ∈ Finset.univ.filter (fun e : Fin E => (idx (ix2 e 0)).toInt = (n.val : ℤ)), upd (ix2 e g) := by
  unfold Ideal.hostScatterAdd
  congr 1
  rw [Finset.sum_filter, Finset.sum_filter, sum_idx2]
  refine Finset.sum_congr rfl fun e _ => ?_
  simp only [row_resultIdx_ix2_iff]
  by_cases he : (idx (ix2 e 0)).toInt = (n.val : ℤ)
  · rw [if_pos he, Finset.sum_eq_single g]
    · rw [if_pos ⟨he, rfl⟩]
    · intro f _ hfg
      rw [if_neg]
      rintro ⟨_, h⟩
      exact hfg (Fin.ext h)
    · intro h
      exact absurd (Finset.mem_univ g) h
  · rw [if_neg he]
    refine Finset.sum_eq_zero fun f _ => ?_
    rw [if_neg]
    rintro ⟨h, _⟩
    exact he h

end Row

/-! ## A scatter of scalars: operand `[N]`, one scalar index per update, updates `[E]` -/

/-- The dimension numbers of a scatter of `E` scalars into an operand of `N` elements: no window axis, the operand's
    one axis scattered. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E : Nat} (wf : ScatterDims.WF ⟨1, ![N]⟩ ⟨2, ![E, 1]⟩ ⟨1, ![E]⟩ [] [0] [0] 1) {w : Nat}

/-- The one operand axis is inserted: no window coordinate. -/
theorem vec_window0 (j : (⟨1, ![E]⟩ : Shape).Idx) : (vecDims N E wf).window j 0 = 0 := rfl
/-- The scatter index an update reads is its own. -/
theorem vec_siIdx (j : (⟨1, ![E]⟩ : Shape).Idx) (c : Fin (vecDims N E wf).scatterDimsToOperandDims.length) :
    (vecDims N E wf).siIdx j c = ix2 (j 0) 0 := by
  funext b
  match b with
  | ⟨0, _⟩ => rfl
  | ⟨1, _⟩ =>
    apply Fin.ext
    have hc : c.val < 1 := c.isLt
    show c.val = 0
    omega
/-- The start is the update's scatter index, read signed. -/
theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (List.mem_singleton.2 rfl), vec_siIdx]
  rfl

/-- Update `j` lands on operand element `i` exactly when its scatter index is `i`. -/
theorem vec_resultIdx_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : ℤ) := by
  have hi0 : (i 0).val < N := (i 0).isLt
  have hs0 : (⟨1, ![N]⟩ : Shape).size 0 = N := rfl
  unfold ScatterDims.resultIdx?
  split
  · next h =>
    rw [Option.some.injEq]
    constructor
    · intro hf
      have h0 := congrArg (fun f => (f 0).val) hf
      simp only [vec_start0, vec_window0] at h0
      have hh := (h 0).1
      rw [vec_start0, vec_window0] at hh
      omega
    · intro h0
      funext a
      apply Fin.ext
      match a with
      | ⟨0, _⟩ =>
        show ((vecDims N E wf).start j idx 0 + ((vecDims N E wf).window j 0 : ℕ)).toNat = (i 0).val
        rw [vec_start0, vec_window0]; omega
  · next h =>
    constructor
    · intro hf; exact absurd hf (by simp)
    · intro h0
      exfalso; apply h
      intro a
      match a with
      | ⟨0, _⟩ =>
        show 0 ≤ (vecDims N E wf).start j idx 0 + ((vecDims N E wf).window j 0 : ℕ) ∧ (vecDims N E wf).start j idx 0 + ((vecDims N E wf).window j 0 : ℕ) < ((⟨1, ![N]⟩ : Shape).size 0 : ℕ)
        rw [vec_start0, vec_window0, hs0]; omega

/-- The same with explicit coordinates. -/
theorem vec_resultIdx_ix1_iff (e : Fin E) (idx : IVec ⟨2, ![E, 1]⟩ w) (n : Fin N) :
    (vecDims N E wf).resultIdx? (ix1 e) idx = some (ix1 n) ↔ (idx (ix2 e 0)).toInt = (n.val : ℤ) :=
  vec_resultIdx_iff wf (ix1 e) idx (ix1 n)

/-- An element of the scatter-add of scalars: the operand's element plus the sum of the updates whose scatter index is
    the element's. -/
theorem vec_scatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e ∈ Finset.univ.filter (fun e : Fin E => (idx (ix2 e 0)).toInt = (n.val : ℤ)), upd (ix1 e) := by
  unfold Ideal.hostScatterAdd
  congr 1
  rw [Finset.sum_filter, Finset.sum_filter, sum_idx1]
  refine Finset.sum_congr rfl fun e _ => ?_
  simp only [vec_resultIdx_ix1_iff]

end Vec

/-- The literal `1.0`. -/
theorem oneL_eq : Cert.GCN.oneL = 1 := by
  simp [Ideal.ofBits, Ideal.ieee, -EReal.coe_mul]; norm_num

/-- Into zeros, a sum of positive extended reals over a finite set is positive exactly when the set has an element. -/
theorem zero_add_sum_pos_iff {ι : Type*} (s : Finset ι) (g : ι → EReal) (hg : ∀ e, 0 < g e) :
    (0 : EReal) < 0 + ∑ e ∈ s, g e ↔ s.Nonempty := by
  rw [zero_add]
  constructor
  · intro h
    by_contra hs
    rw [Finset.not_nonempty_iff_eq_empty] at hs
    rw [hs, Finset.sum_empty] at h
    exact lt_irrefl _ h
  · rintro ⟨e, he⟩
    exact (hg e).trans_le (Finset.single_le_sum (fun i _ => (hg i).le) he)

/-! ## The three scatter-adds of the two programs, read at an index -/

section KernelProgram
variable [Cert.KernelIdeal.Facts₀]

/-- The kernel program's scatter-add of the 256-column updates at an element. -/
theorem kernel_scatterAdd_apply (x : FVec Ideal Cert.KernelIdeal.S50000x256 .f32) (idx : IVec Cert.KernelIdeal.S800000x1 32)
    (upd : FVec Ideal Cert.KernelIdeal.S800000x256 .f32) (n : Fin 50000) (g : Fin 256) :
    Host.scatterAdd (F := Ideal) Cert.KernelIdeal.scatter_S50000x256_S800000x1_S800000x256_1_0_0_1 x idx upd (ix2 n g)
      = x (ix2 n g) + ∑ e ∈ Finset.univ.filter (fun e : Fin 800000 => (idx (ix2 e 0)).toInt = (n.val : ℤ)), upd (ix2 e g) :=
  row_scatterAdd_apply Cert.KernelIdeal.Facts₀.scatter_S50000x256_S800000x1_S800000x256_1_0_0_1_wf x idx upd n g

end KernelProgram

section ReferenceProgram
variable [Cert.ReferenceIdeal.Facts₀]

/-- The reference program's scatter-add of 128-column updates at an element. -/
theorem ref_scatterAdd_apply (x : FVec Ideal Cert.ReferenceIdeal.S50000x128 .f32) (idx : IVec Cert.ReferenceIdeal.S800000x1 32)
    (upd : FVec Ideal Cert.ReferenceIdeal.S800000x128 .f32) (n : Fin 50000) (g : Fin 128) :
    Host.scatterAdd (F := Ideal) Cert.ReferenceIdeal.scatter_S50000x128_S800000x1_S800000x128_1_0_0_1 x idx upd (ix2 n g)
      = x (ix2 n g) + ∑ e ∈ Finset.univ.filter (fun e : Fin 800000 => (idx (ix2 e 0)).toInt = (n.val : ℤ)), upd (ix2 e g) :=
  row_scatterAdd_apply Cert.ReferenceIdeal.Facts₀.scatter_S50000x128_S800000x1_S800000x128_1_0_0_1_wf x idx upd n g

/-- The reference program's scatter-add of scalars (the in-degree count) at an element. -/
theorem ref_scatterAdd1_apply (x : FVec Ideal Cert.ReferenceIdeal.S50000 .f32) (idx : IVec Cert.ReferenceIdeal.S800000x1 32)
    (upd : FVec Ideal Cert.ReferenceIdeal.S800000 .f32) (n : Fin 50000) :
    Host.scatterAdd (F := Ideal) Cert.ReferenceIdeal.scatter_S50000_S800000x1_S800000_n_0_0_1 x idx upd (ix1 n)
      = x (ix1 n) + ∑ e ∈ Finset.univ.filter (fun e : Fin 800000 => (idx (ix2 e 0)).toInt = (n.val : ℤ)), upd (ix1 e) :=
  vec_scatterAdd_apply Cert.ReferenceIdeal.Facts₀.scatter_S50000_S800000x1_S800000_n_0_0_1_wf x idx upd n

/-- The gate sum at a node is positive exactly when the node's in-degree is, every gate value being positive: each is
    a sum, over the edges sent to the node, of positive terms. -/
theorem has_msg_iff (idx : IVec Cert.ReferenceIdeal.S800000x1 32) (sig : FVec Ideal Cert.ReferenceIdeal.S800000x128 .f32)
    (hpos : ∀ j, 0 < sig j) (n : Fin 50000) (f : Fin 128) :
    Ideal.cmp .ogt (Host.scatterAdd (F := Ideal) Cert.ReferenceIdeal.scatter_S50000x128_S800000x1_S800000x128_1_0_0_1
        (broadcastInDim Cert.ReferenceIdeal.S50000x128 ![] Cert.ReferenceIdeal.Facts₀.bcast_S_S50000x128 (constant (F := Ideal) Cert.ReferenceIdeal.S_ .f32 0x00000000#32))
        idx sig (ix2 n f)) Cert.GCN.zeroL
    = Ideal.cmp .ogt (Host.scatterAdd (F := Ideal) Cert.ReferenceIdeal.scatter_S50000_S800000x1_S800000_n_0_0_1
        (broadcastInDim Cert.ReferenceIdeal.S50000 ![] Cert.ReferenceIdeal.Facts₀.bcast_S_S50000 (constant (F := Ideal) Cert.ReferenceIdeal.S_ .f32 0x00000000#32))
        idx
        (broadcastInDim Cert.ReferenceIdeal.S800000 ![] Cert.ReferenceIdeal.Facts₀.bcast_S_S800000 (constant (F := Ideal) Cert.ReferenceIdeal.S_ .f32 0x3F800000#32))
        (ix1 n)) Cert.GCN.zeroL := by
  rw [ref_scatterAdd_apply, ref_scatterAdd1_apply]
  have hz : ∀ k, broadcastInDim Cert.ReferenceIdeal.S50000x128 ![] Cert.ReferenceIdeal.Facts₀.bcast_S_S50000x128
      (constant (F := Ideal) Cert.ReferenceIdeal.S_ .f32 0x00000000#32) k = 0 := fun _ => Ideal.ofBits_zero_f32
  have hz1 : ∀ k, broadcastInDim Cert.ReferenceIdeal.S50000 ![] Cert.ReferenceIdeal.Facts₀.bcast_S_S50000
      (constant (F := Ideal) Cert.ReferenceIdeal.S_ .f32 0x00000000#32) k = 0 := fun _ => Ideal.ofBits_zero_f32
  have ho : ∀ k, broadcastInDim Cert.ReferenceIdeal.S800000 ![] Cert.ReferenceIdeal.Facts₀.bcast_S_S800000
      (constant (F := Ideal) Cert.ReferenceIdeal.S_ .f32 0x3F800000#32) k = 1 := fun _ => oneL_eq
  rw [hz, hz1]
  simp only [ho]
  have hzL : Cert.GCN.zeroL = 0 := Ideal.ofBits_zero_f32
  rw [hzL]
  unfold Ideal.cmp
  show BitVec.ofBool (decide (_ < _)) = BitVec.ofBool (decide (_ < _))
  refine congrArg BitVec.ofBool ?_
  rw [decide_eq_decide, zero_add_sum_pos_iff _ _ (fun e => hpos (ix2 e f)), zero_add_sum_pos_iff _ _ (fun _ => zero_lt_one)]

end ReferenceProgram

section BothPrograms
variable [Cert.KernelIdeal.Facts₀] [Cert.ReferenceIdeal.Facts₀]

/-- The first 128 columns of the one scatter-add of the concatenated updates are the scatter-add of the first half. -/
theorem num_slice (idx : IVec Cert.KernelIdeal.S800000x1 32) (a b : FVec Ideal Cert.KernelIdeal.S800000x128 .f32) :
    extractStridedSlice Cert.KernelIdeal.S50000x128 ![0, 0]
      (Host.scatterAdd (F := Ideal) Cert.KernelIdeal.scatter_S50000x256_S800000x1_S800000x256_1_0_0_1
        (broadcastInDim Cert.KernelIdeal.S50000x256 ![] Cert.KernelIdeal.Facts₀.bcast_S_S50000x256 (constant (F := Ideal) Cert.KernelIdeal.S_ .f32 0x00000000#32))
        idx
        (concatenate Cert.KernelIdeal.S800000x256 1 [⟨Cert.KernelIdeal.S800000x128, a⟩, ⟨Cert.KernelIdeal.S800000x128, b⟩]
          Cert.KernelIdeal.Facts₀.concatenates_S800000x128_S800000x128_S800000x256_d1))
      Cert.KernelIdeal.Facts₀.slices_S50000x256_S50000x128_0_0
    = Host.scatterAdd (F := Ideal) Cert.ReferenceIdeal.scatter_S50000x128_S800000x1_S800000x128_1_0_0_1
        (broadcastInDim Cert.ReferenceIdeal.S50000x128 ![] Cert.ReferenceIdeal.Facts₀.bcast_S_S50000x128 (constant (F := Ideal) Cert.ReferenceIdeal.S_ .f32 0x00000000#32))
        idx a := by
  funext i
  obtain ⟨n, f, rfl⟩ : ∃ n f, i = ix2 n f := ⟨i 0, i 1, eq_ix2 i⟩
  have hf : f.val < 256 := by have := f.isLt; omega
  refine (extractStridedSlice_apply _ _ _ _ (ix2 n (⟨f.val, hf⟩ : Fin 256)) ?_).trans ?_
  · intro c
    match c with
    | ⟨0, _⟩ => exact (Nat.zero_add _).symm
    | ⟨1, _⟩ => exact (Nat.zero_add _).symm
  rw [kernel_scatterAdd_apply, ref_scatterAdd_apply]
  refine congrArg₂ (· + ·) rfl ?_
  refine Finset.sum_congr rfl fun e _ => ?_
  refine concatenate_pair_apply_left (t := Cert.KernelIdeal.S800000x256) (s₁ := Cert.KernelIdeal.S800000x128) (s₂ := Cert.KernelIdeal.S800000x128) 1 a b _ _ rfl (ix2 e f) ?_
  intro c
  match c with
  | ⟨0, _⟩ => rfl
  | ⟨1, _⟩ => rfl

/-- The last 128 columns of the one scatter-add of the concatenated updates are the scatter-add of the second half. -/
theorem den_slice (idx : IVec Cert.KernelIdeal.S800000x1 32) (a b : FVec Ideal Cert.KernelIdeal.S800000x128 .f32) :
    extractStridedSlice Cert.KernelIdeal.S50000x128 ![0, 128]
      (Host.scatterAdd (F := Ideal) Cert.KernelIdeal.scatter_S50000x256_S800000x1_S800000x256_1_0_0_1
        (broadcastInDim Cert.KernelIdeal.S50000x256 ![] Cert.KernelIdeal.Facts₀.bcast_S_S50000x256 (constant (F := Ideal) Cert.KernelIdeal.S_ .f32 0x00000000#32))
        idx
        (concatenate Cert.KernelIdeal.S800000x256 1 [⟨Cert.KernelIdeal.S800000x128, a⟩, ⟨Cert.KernelIdeal.S800000x128, b⟩]
          Cert.KernelIdeal.Facts₀.concatenates_S800000x128_S800000x128_S800000x256_d1))
      Cert.KernelIdeal.Facts₀.slices_S50000x256_S50000x128_0_128
    = Host.scatterAdd (F := Ideal) Cert.ReferenceIdeal.scatter_S50000x128_S800000x1_S800000x128_1_0_0_1
        (broadcastInDim Cert.ReferenceIdeal.S50000x128 ![] Cert.ReferenceIdeal.Facts₀.bcast_S_S50000x128 (constant (F := Ideal) Cert.ReferenceIdeal.S_ .f32 0x00000000#32))
        idx b := by
  funext i
  obtain ⟨n, f, rfl⟩ : ∃ n f, i = ix2 n f := ⟨i 0, i 1, eq_ix2 i⟩
  have hf : 128 + f.val < 256 := by have := f.isLt; omega
  refine (extractStridedSlice_apply _ _ _ _ (ix2 n (⟨128 + f.val, hf⟩ : Fin 256)) ?_).trans ?_
  · intro c
    match c with
    | ⟨0, _⟩ => exact (Nat.zero_add _).symm
    | ⟨1, _⟩ => rfl
  rw [kernel_scatterAdd_apply, ref_scatterAdd_apply]
  refine congrArg₂ (· + ·) rfl ?_
  refine Finset.sum_congr rfl fun e _ => ?_
  refine concatenate_pair_apply_right (t := Cert.KernelIdeal.S800000x256) (s₁ := Cert.KernelIdeal.S800000x128) (s₂ := Cert.KernelIdeal.S800000x128) 1 a b _ _ rfl rfl (ix2 e f) ?_ ?_
  · intro c hc
    match c with
    | ⟨0, _⟩ => rfl
    | ⟨1, _⟩ => exact absurd rfl hc
  · exact Nat.add_comm _ _

end BothPrograms

end Cert.GCN.ScatterSums

end
-- ==== Proof.CombineBridge.lean ====
/-
  The gated aggregate of the two programs agrees, given that their node projections, numerators and gate sums agree.
  Both compute, per node `n` and feature `f`, `where(has, AX + num / where(has, den, 1), X) · 2e-5`. The kernel's test `has`
  is "the gate sum at `(n, f)` is positive"; the reference's is "the in-degree of node `n` is positive", read through a
  [50000] → [50000, 1] → [50000, 128] chain of broadcasts. Every gate value being positive, the two tests agree: each says
  that some edge is sent to node `n`.
-/
import proofs.«133739_j13022340842268_2_alg».proof.Proof.KDefs
import proofs.«133739_j13022340842268_2_alg».proof.Proof.RefReadP
import proofs.«133739_j13022340842268_2_alg».proof.Proof.ScatterSums
import proofs.«133739_j13022340842268_2_alg».proof.Proof.Spec
import proofs.«133739_j13022340842268_2_alg».proof.Proof.Gen.KernelIdeal
import proofs.«133739_j13022340842268_2_alg».proof.Proof.Gen.ReferenceIdeal
import Idealize.ShloMosaic.Lib.ValueLayout
import Idealize.ShloMosaic.Lib.Pipeline.Value
import Idealize.ShloMosaic.PureOps.Ideal.Laws

set_option maxRecDepth 16384

noncomputable section

namespace Cert.GCN.CombineBridge

open Idealize.ShloMosaic Idealize.ShloMosaic.ValueIdx
open Cert.ReferenceIdeal.ReadP

variable [Cert.KernelIdeal.Facts₀]

/-- The reference's "node has an incoming edge" bit, broadcast to the node-feature shape by the first `where`, at `(n, f)`. -/
theorem call0_cond (x12 : IVec Cert.ReferenceIdeal.S800000 32) (n : Fin 50000) (f : Fin 128) :
    val_main_call0_v1 (F := Ideal) x12 (ix2 n f) = val_main_v56 (F := Ideal) x12 (ix1 n) := by
  rw [val_main_call0_v1_apply, val_main_v57_apply]
  refine congrArg (val_main_v56 (F := Ideal) x12) (funext fun a => Fin.ext ?_)
  match a with
  | ⟨0, _⟩ => rfl

/-- The same bit as the second `where` broadcasts it. -/
theorem call1_cond (x12 : IVec Cert.ReferenceIdeal.S800000 32) (n : Fin 50000) (f : Fin 128) :
    val_main_call1_v0 (F := Ideal) x12 (ix2 n f) = val_main_v56 (F := Ideal) x12 (ix1 n) := by
  rw [val_main_call1_v0_apply, val_main_v57_apply]
  refine congrArg (val_main_v56 (F := Ideal) x12) (funext fun a => Fin.ext ?_)
  match a with
  | ⟨0, _⟩ => rfl

/-- The kernel's test "the gate sum at `(n, f)` is positive" is the reference's test "node `n` has an incoming edge". -/
theorem den_cond (x0 : FVec Ideal Cert.KernelIdeal.S50000x128 .f32) (x5 x7 : FVec Ideal Cert.KernelIdeal.S128x128 .f32)
    (x6 x8 : FVec Ideal Cert.KernelIdeal.S128 .f32) (x11 x12 : IVec Cert.KernelIdeal.S800000 32)
    (hpos : ∀ j, 0 < val_main_v36 (F := Ideal) x0 x5 x6 x7 x8 x11 x12 j) (n : Fin 50000) (f : Fin 128) :
    Ideal.cmp .ogt (val_main_v50 (F := Ideal) x0 x5 x6 x7 x8 x11 x12 (ix2 n f)) Cert.GCN.zeroL
      = val_main_v56 (F := Ideal) x12 (ix1 n) := by
  have h := Cert.GCN.ScatterSums.has_msg_iff (val_main_v49 (F := Ideal) x12) (val_main_v36 (F := Ideal) x0 x5 x6 x7 x8 x11 x12) hpos n f
  rw [val_main_v56_apply, val_main_v55_apply, val_main_cst_10_apply]
  unfold val_main_v50 val_main_v48 val_main_cst_7 val_main_v54 val_main_v52 val_main_cst_9 val_main_v53 val_main_v51 val_main_cst_8
  unfold val_main_v49 at h
  exact h

/-- The gated aggregates agree entry by entry: after the three rewrites both sides are the same select-expression once the
    kernel's condition is the reference's. -/
theorem H_eq (x0 : FVec Ideal Cert.KernelIdeal.S50000x128 .f32) (x1 x3 x5 x7 : FVec Ideal Cert.KernelIdeal.S128x128 .f32)
    (x2 x4 x6 x8 : FVec Ideal Cert.KernelIdeal.S128 .f32) (x11 x12 : IVec Cert.KernelIdeal.S800000 32)
    (hA : Cert.GCN.lin x0 x1 (Cert.KernelIdeal.KDefs.row x2) = val_main_v3 (F := Ideal) x0 x1 x2)
    (hnum : Cert.KernelIdeal.KDefs.numK (Cert.GCN.lin x0 x3 (Cert.KernelIdeal.KDefs.row x4)) (Cert.GCN.lin x0 x5 (Cert.KernelIdeal.KDefs.row x6)) (Cert.GCN.lin x0 x7 (Cert.KernelIdeal.KDefs.row x8)) x11 x12 = val_main_v47 (F := Ideal) x0 x3 x4 x5 x6 x7 x8 x11 x12)
    (hden : Cert.KernelIdeal.KDefs.denK (Cert.GCN.lin x0 x3 (Cert.KernelIdeal.KDefs.row x4)) (Cert.GCN.lin x0 x5 (Cert.KernelIdeal.KDefs.row x6)) (Cert.GCN.lin x0 x7 (Cert.KernelIdeal.KDefs.row x8)) x11 x12 = val_main_v50 (F := Ideal) x0 x5 x6 x7 x8 x11 x12)
    (hpos : ∀ j, 0 < val_main_v36 (F := Ideal) x0 x5 x6 x7 x8 x11 x12 j) :
    Cert.KernelIdeal.KDefs.HK x0 x1 x2 x3 x4 x5 x6 x7 x8 x11 x12 = val_main_v63 (F := Ideal) x0 x1 x2 x3 x4 x5 x6 x7 x8 x11 x12 := by
  funext i
  obtain ⟨n, f, rfl⟩ : ∃ (n : Fin 50000) (f : Fin 128), i = ix2 n f := ⟨i 0, i 1, eq_ix2 i⟩
  unfold Cert.KernelIdeal.KDefs.HK
  rw [hA, hnum, hden]
  rw [val_main_v63_apply, val_main_v61_apply, val_main_v60_apply, val_main_v59_apply, val_main_v58_apply, val_main_v62_apply,
    val_main_call0_v2_apply, call0_cond, call1_cond]
  unfold Cert.GCN.combS
  rw [den_cond x0 x5 x7 x6 x8 x11 x12 hpos n f]
  rfl

end Cert.GCN.CombineBridge
end
-- ==== Proof.StatsBridge.lean ====
/-
  The last stretch of the two programs from the common gated aggregate H (a [50000,128] array of extended reals) to the
  result: column mean μ and variance σ² over the nodes, then x + max ((h − μ) · s · γ + β) 0 with s the reciprocal
  root of σ² + ε. The kernel program keeps the statistics as [1,128] rows, clamps the variance at 0 and multiplies by
  rsqrt; the reference keeps them as [128] vectors, does not clamp, and divides by sqrt. The two agree for EVERY array H:
  the mean of squared deviations is a non-negative extended real (each square is, a sum of such is, and dividing by the
  positive real 50000 keeps the sign), so the clamp is the identity; and for v > 0 (here v = σ² + ε with ε a positive
  real) one has x · rsqrt v = x / sqrt v for every extended real x, at v = +∞ (both sides x · 0) as at a positive real.
-/
import proofs.«133739_j13022340842268_2_alg».proof.Proof.KDefs
import proofs.«133739_j13022340842268_2_alg».proof.Proof.RefReadP
import proofs.«133739_j13022340842268_2_alg».proof.Proof.Gen.KernelIdeal
import proofs.«133739_j13022340842268_2_alg».proof.Proof.Gen.ReferenceIdeal
import proofs.«133739_j13022340842268_2_alg».proof.Proof.Spec
import Idealize.ShloMosaic.Lib.ValueLayout
import Idealize.ShloMosaic.Lib.Pipeline.Value
import Idealize.ShloMosaic.PureOps.Ideal.Laws
import Idealize.ShloMosaic.Lib.IdealHost

noncomputable section

namespace Cert.GCN.StatsBridge

open Idealize.ShloMosaic Idealize.ShloMosaic.ValueIdx
open Cert.ReferenceIdeal Cert.ReferenceIdeal.Facts₀

/-! ## Extended-real arithmetic -/

/-- The square of an extended real is not negative (the two infinities square to `+∞`). -/
theorem mul_self_nonneg' (x : EReal) : 0 ≤ x * x := by
  induction x using EReal.rec with
  | bot => rw [EReal.bot_mul_bot]; exact le_top
  | coe r => rw [← EReal.coe_mul]; exact EReal.coe_nonneg.2 (mul_self_nonneg r)
  | top => rw [EReal.top_mul_top]; exact le_top

/-- The f32 pattern `0x47435000` is the real `50000`. -/
theorem ofBits_50000 : Ideal.ofBits .f32 0x47435000#32 = ((50000 : ℝ) : EReal) := by
  simp [Ideal.ofBits, Ideal.ieee, -EReal.coe_mul]; norm_num

/-- Dividing a non-negative extended real by `50000` leaves it non-negative: it is the product with the positive real `1/50000`. -/
theorem div_50000_nonneg {x : EReal} (hx : 0 ≤ x) : 0 ≤ Ideal.div x (Ideal.ofBits .f32 0x47435000#32) := by
  rw [ofBits_50000, Ideal.div_coe (by norm_num : (50000 : ℝ) ≠ 0)]
  exact mul_nonneg hx (EReal.coe_nonneg.2 (by norm_num))

/-- The f32 pattern `0x3727C5AC` (the literal `1e-5`) is a positive real. -/
theorem ofBits_eps_pos : ∃ e : ℝ, 0 < e ∧ Ideal.ofBits .f32 0x3727C5AC#32 = (e : EReal) := by
  refine ⟨_, ?_, by simp [Ideal.ofBits, Ideal.ieee, -EReal.coe_mul]; rfl⟩
  positivity

/-- For `v > 0`, multiplying by `rsqrt v` is dividing by `sqrt v`, for every extended real `x`: at `v = +∞` both sides are
    `x · 0`; at a positive real `r` both are `x · (√r)⁻¹`. -/
theorem mul_rsqrt_eq_div_sqrt (x v : EReal) (hv : 0 < v) : x * Ideal.rsqrt v = Ideal.div x (Ideal.sqrt v) := by
  induction v using EReal.rec with
  | bot => exact absurd hv (by simp)
  | top =>
    show x * 0 = Ideal.div x ⊤
    rw [Ideal.div, if_neg (by simp), EReal.inv_top]
  | coe r =>
    have hr : 0 < r := EReal.coe_pos.1 hv
    have hs : Real.sqrt r ≠ 0 := (Real.sqrt_pos.2 hr).ne'
    have h1 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    have h2 : Ideal.sqrt (r : EReal) = ((Real.sqrt r : ℝ) : EReal) := by
      show (if r < 0 then (⊥ : EReal) else ((Real.sqrt r : ℝ) : EReal)) = _
      rw [if_neg (not_lt.2 hr.le)]
    rw [h1, h2, Ideal.div_coe hs, one_div]

/-! ## Broadcasts read at an index -/

/-- A `[128]` vector broadcast to a `[1,128]` row reads, at `(u, j)`, the vector at `j`. -/
theorem bcast1_apply {α : Type} (h : (⟨1, ![128]⟩ : Shape).BroadcastsInDim ⟨2, ![1, 128]⟩ ![1])
    (y : (⟨1, ![128]⟩ : Shape).Idx → α) (u : Fin 1) (j : Fin 128) :
    broadcastInDim ⟨2, ![1, 128]⟩ ![1] h y (ix2 u j) = y (ix1 j) :=
  broadcastInDim_apply _ h y _ _ (fun a => match a with
    | ⟨0, _⟩ => by show j.val = if (128 : Nat) = 1 then 0 else j.val; rw [if_neg (by decide)])

/-- A `[1,128]` row broadcast to `[50000,128]` reads, at `(n, j)`, the row at `(0, j)`. -/
theorem bcast2_apply {α : Type} (h : (⟨2, ![1, 128]⟩ : Shape).BroadcastsInDim ⟨2, ![50000, 128]⟩ ![0, 1])
    (y : (⟨2, ![1, 128]⟩ : Shape).Idx → α) (n : Fin 50000) (j : Fin 128) :
    broadcastInDim ⟨2, ![50000, 128]⟩ ![0, 1] h y (ix2 n j) = y (ix2 (0 : Fin 1) j) :=
  broadcastInDim_apply _ h y _ _ (fun a => match a with
    | ⟨0, _⟩ => by show 0 = if (1 : Nat) = 1 then 0 else n.val; rw [if_pos rfl]
    | ⟨1, _⟩ => by show j.val = if (128 : Nat) = 1 then 0 else j.val; rw [if_neg (by decide)])

/-! ## The reference's stretch as functions of the aggregate -/

/-- The column means of `H` over the nodes, as a `[128]` vector. -/
def mean1 (H : FVec Ideal S50000x128 .f32) : FVec Ideal S128 .f32 :=
  Host.divf (Host.reduceAdd H (constant S_ .f32 0x00000000#32) reducesTo_S50000x128_S128_d0 h_S_)
    (broadcastInDim S128 ![] bcast_S_S128 (constant S_ .f32 0x47435000#32))

/-- The deviations of `H` from its column means. -/
def dev (H : FVec Ideal S50000x128 .f32) : FVec Ideal S50000x128 .f32 :=
  subf H (broadcastInDim S50000x128 ![0, 1] bcast_S1x128_S50000x128_0_1
    (broadcastInDim S1x128 ![1] bcast_S128_S1x128_1 (mean1 H)))

/-- The column means of the squared deviations, as a `[128]` vector. -/
def var1 (H : FVec Ideal S50000x128 .f32) : FVec Ideal S128 .f32 :=
  Host.divf (Host.reduceAdd (mulf (dev H) (dev H)) (constant S_ .f32 0x00000000#32) reducesTo_S50000x128_S128_d0 h_S_)
    (broadcastInDim S128 ![] bcast_S_S128 (constant S_ .f32 0x47435000#32))

/-- The reference's result from the aggregate: `x + max ((H − μ) / sqrt (σ² + ε) · γ + β) 0`. -/
def outR (H x0 : FVec Ideal S50000x128 .f32) (x9 x10 : FVec Ideal S128 .f32) : FVec Ideal S50000x128 .f32 :=
  addf x0 (maximumf
    (addf
      (mulf
        (Host.divf (dev H) (broadcastInDim S50000x128 ![0, 1] bcast_S1x128_S50000x128_0_1
          (broadcastInDim S1x128 ![1] bcast_S128_S1x128_1
            (Host.sqrt (addf (var1 H) (broadcastInDim S128 ![] bcast_S_S128 (constant S_ .f32 0x3727C5AC#32)))))))
        (broadcastInDim S50000x128 ![0, 1] bcast_S1x128_S50000x128_0_1 (broadcastInDim S1x128 ![1] bcast_S128_S1x128_1 x9)))
      (broadcastInDim S50000x128 ![0, 1] bcast_S1x128_S50000x128_0_1 (broadcastInDim S1x128 ![1] bcast_S128_S1x128_1 x10)))
    (broadcastInDim S50000x128 ![] bcast_S_S50000x128 (constant S_ .f32 0x00000000#32)))

section Args
variable (x0 : FVec Ideal S50000x128 .f32) (x1 x3 x5 x7 : FVec Ideal S128x128 .f32)
  (x2 x4 x6 x8 x9 x10 : FVec Ideal S128 .f32) (x11 x12 : IVec S800000 32)

/-- The reference's operations %64–%90 are `outR` of its aggregate %63: the same operations on the same operands, the
    definitions unfolded. -/
theorem v90_eq_outR :
    ReadP.val_main_v90 (F := Ideal) x0 x1 x2 x3 x4 x5 x6 x7 x8 x9 x10 x11 x12
      = outR (ReadP.val_main_v63 (F := Ideal) x0 x1 x2 x3 x4 x5 x6 x7 x8 x11 x12) x0 x9 x10 := by
  unfold ReadP.val_main_v90 ReadP.val_main_v89 ReadP.val_main_v88 ReadP.val_main_v87 ReadP.val_main_v86 ReadP.val_main_v85
    ReadP.val_main_v84 ReadP.val_main_v83 ReadP.val_main_v82 ReadP.val_main_v81 ReadP.val_main_v80 ReadP.val_main_v79
    ReadP.val_main_v78 ReadP.val_main_v77 ReadP.val_main_v76 ReadP.val_main_v75 ReadP.val_main_v74 ReadP.val_main_v73
    ReadP.val_main_v72 ReadP.val_main_v71 ReadP.val_main_v70 ReadP.val_main_v69 ReadP.val_main_v68 ReadP.val_main_v67
    ReadP.val_main_v66 ReadP.val_main_v65 ReadP.val_main_v64 ReadP.val_main_call2_v0 ReadP.val_main_call2_cst
    ReadP.val_main_cst_13 ReadP.val_main_cst_14 ReadP.val_main_cst_15 ReadP.val_main_cst_16 ReadP.val_main_cst_17
    outR dev var1 mean1
  rfl

end Args

/-! ## The kernel program's statistics are the reference's -/

/-- The kernel program's mean row is the mean vector as a row. -/
theorem meanK_eq (H : FVec Ideal S50000x128 .f32) :
    Cert.KernelIdeal.KDefs.meanK H = broadcastInDim S1x128 ![1] bcast_S128_S1x128_1 (mean1 H) := by
  funext p; rfl

/-- The kernel program's variance row is the variance vector as a row, clamped at zero. -/
theorem varK_eq (H : FVec Ideal S50000x128 .f32) :
    Cert.KernelIdeal.KDefs.varK H = maximumf (broadcastInDim S1x128 ![1] bcast_S128_S1x128_1 (var1 H))
      (broadcastInDim S1x128 ![] Cert.KernelIdeal.Facts₀.bcast_S_S1x128 (constant S_ .f32 0x00000000#32)) := by
  unfold Cert.KernelIdeal.KDefs.varK
  rw [meanK_eq H]
  funext p; rfl

/-- The mean of the squared deviations is not negative: a sum of squares divided by `50000`. -/
theorem var1_nonneg (H : FVec Ideal S50000x128 .f32) (j : Fin 128) : 0 ≤ var1 H (ix1 j) := by
  show 0 ≤ Ideal.div (Ideal.hostReduceAdd reducesTo_S50000x128_S128_d0 (mulf (dev H) (dev H))
    (Ideal.ofBits .f32 0x00000000#32) (ix1 j)) (Ideal.ofBits .f32 0x47435000#32)
  refine div_50000_nonneg ?_
  unfold Ideal.hostReduceAdd
  rw [Ideal.ofBits_zero_f32, zero_add]
  exact Finset.sum_nonneg fun i _ => mul_self_nonneg' (dev H i)

/-- The reference's result from the aggregate, read at a node and a feature. -/
theorem outR_apply (H x0 : FVec Ideal S50000x128 .f32) (x9 x10 : FVec Ideal S128 .f32) (n : Fin 50000) (j : Fin 128) :
    outR H x0 x9 x10 (ix2 n j) = x0 (ix2 n j) + max
      (Ideal.div (H (ix2 n j) - mean1 H (ix1 j)) (Ideal.sqrt (var1 H (ix1 j) + Ideal.ofBits .f32 0x3727C5AC#32))
        * x9 (ix1 j) + x10 (ix1 j)) (Ideal.ofBits .f32 0x00000000#32) := by
  have e1 : ∀ y : S128.Idx → EReal, broadcastInDim S50000x128 ![0, 1] bcast_S1x128_S50000x128_0_1
      (broadcastInDim S1x128 ![1] bcast_S128_S1x128_1 y) (ix2 n j) = y (ix1 j) := fun y => by
    rw [bcast2_apply, bcast1_apply]
  show x0 (ix2 n j) + max
    (Ideal.div (H (ix2 n j) - broadcastInDim S50000x128 ![0, 1] bcast_S1x128_S50000x128_0_1
        (broadcastInDim S1x128 ![1] bcast_S128_S1x128_1 (mean1 H)) (ix2 n j))
      (broadcastInDim S50000x128 ![0, 1] bcast_S1x128_S50000x128_0_1 (broadcastInDim S1x128 ![1] bcast_S128_S1x128_1
        (Host.sqrt (addf (var1 H) (broadcastInDim S128 ![] bcast_S_S128 (constant S_ .f32 0x3727C5AC#32))))) (ix2 n j))
      * broadcastInDim S50000x128 ![0, 1] bcast_S1x128_S50000x128_0_1 (broadcastInDim S1x128 ![1] bcast_S128_S1x128_1 x9) (ix2 n j)
      + broadcastInDim S50000x128 ![0, 1] bcast_S1x128_S50000x128_0_1 (broadcastInDim S1x128 ![1] bcast_S128_S1x128_1 x10) (ix2 n j))
    (Ideal.ofBits .f32 0x00000000#32) = _
  rw [e1, e1, e1, e1]
  rfl

/-- At a node and a feature, the kernel program's last step on its statistics of `H` is the reference's result from `H`. -/
theorem finS_eq_outR (H x0 : FVec Ideal S50000x128 .f32) (x9 x10 : FVec Ideal S128 .f32) (n : Fin 50000) (j : Fin 128) :
    Cert.GCN.finS (H (ix2 n j)) (x0 (ix2 n j)) (Cert.KernelIdeal.KDefs.meanK H (ix2 (0 : Fin 1) j))
      (Cert.KernelIdeal.KDefs.varK H (ix2 (0 : Fin 1) j)) (Cert.KernelIdeal.KDefs.row x9 (ix2 (0 : Fin 1) j))
      (Cert.KernelIdeal.KDefs.row x10 (ix2 (0 : Fin 1) j)) = outR H x0 x9 x10 (ix2 n j) := by
  have hm : Cert.KernelIdeal.KDefs.meanK H (ix2 (0 : Fin 1) j) = mean1 H (ix1 j) := by
    rw [meanK_eq]; exact bcast1_apply _ _ 0 j
  have hv : Cert.KernelIdeal.KDefs.varK H (ix2 (0 : Fin 1) j) = var1 H (ix1 j) := by
    rw [varK_eq]
    show max (broadcastInDim S1x128 ![1] bcast_S128_S1x128_1 (var1 H) (ix2 (0 : Fin 1) j)) (Ideal.ofBits .f32 0x00000000#32) = _
    rw [bcast1_apply, Ideal.ofBits_zero_f32]
    exact max_eq_left (var1_nonneg H j)
  have h9 : Cert.KernelIdeal.KDefs.row x9 (ix2 (0 : Fin 1) j) = x9 (ix1 j) := shapeCast_a_1a_apply x9 _ 0 j
  have h10 : Cert.KernelIdeal.KDefs.row x10 (ix2 (0 : Fin 1) j) = x10 (ix1 j) := shapeCast_a_1a_apply x10 _ 0 j
  obtain ⟨e, he, hε⟩ := ofBits_eps_pos
  have hpos : 0 < var1 H (ix1 j) + Ideal.ofBits .f32 0x3727C5AC#32 := by
    rw [hε]
    exact lt_of_lt_of_le (EReal.coe_pos.2 he) (le_add_of_nonneg_left (var1_nonneg H j))
  rw [outR_apply, hm, hv, h9, h10]
  unfold Cert.GCN.finS
  rw [mul_rsqrt_eq_div_sqrt _ _ hpos]

/-! ## The two results agree when the aggregates do -/

section Main
variable {x0 : FVec Ideal Cert.KernelIdeal.S50000x128 .f32} {x1 x3 x5 x7 : FVec Ideal Cert.KernelIdeal.S128x128 .f32}
  {x2 x4 x6 x8 x9 x10 : FVec Ideal Cert.KernelIdeal.S128 .f32} {x11 x12 : IVec Cert.KernelIdeal.S800000 32}

/-- If the two programs' gated aggregates agree, so do their results. -/
theorem out_eq_of_H
    (hH : Cert.KernelIdeal.KDefs.HK x0 x1 x2 x3 x4 x5 x6 x7 x8 x11 x12
      = ReadP.val_main_v63 (F := Ideal) x0 x1 x2 x3 x4 x5 x6 x7 x8 x11 x12) :
    Cert.KernelIdeal.KDefs.outK x0 x1 x2 x3 x4 x5 x6 x7 x8 x9 x10 x11 x12
      = ReadP.val_main_v90 (F := Ideal) x0 x1 x2 x3 x4 x5 x6 x7 x8 x9 x10 x11 x12 := by
  funext i
  obtain ⟨n, j, rfl⟩ : ∃ (n : Fin 50000) (j : Fin 128), i = ix2 n j := ⟨i 0, i 1, eq_ix2 i⟩
  rw [v90_eq_outR, ← hH]
  exact finS_eq_outR (Cert.KernelIdeal.KDefs.HK x0 x1 x2 x3 x4 x5 x6 x7 x8 x11 x12) x0 x9 x10 n j

end Main

end Cert.GCN.StatsBridge

end
-- ==== Proof.Bridge.lean ====
/-
  The kernel program's result, as a function of the thirteen arguments, is the reference's. The four node projections
  are the reference's (the same row-by-column sums plus the same bias entries); the edge gate is the reference's gate;
  the numerator and the denominator — the two column halves of the one scatter-add of the concatenated updates — are
  the reference's two scatter-adds; every gate value is positive when the inputs are finite, so that the kernel's test
  "gate sum positive" is the reference's test "in-degree positive"; the pointwise combine and the batch statistics then
  agree.
-/
import proofs.«133739_j13022340842268_2_alg».proof.Proof.KDefs
import proofs.«133739_j13022340842268_2_alg».proof.Proof.RefReadP
import proofs.«133739_j13022340842268_2_alg».proof.Proof.ScatterSums
import proofs.«133739_j13022340842268_2_alg».proof.Proof.GatePos
import proofs.«133739_j13022340842268_2_alg».proof.Proof.Gen.KernelIdeal
import proofs.«133739_j13022340842268_2_alg».proof.Proof.Gen.ReferenceIdeal
import proofs.«133739_j13022340842268_2_alg».proof.Proof.Gen.Pre_finite_inputs
import proofs.«133739_j13022340842268_2_alg».proof.Proof.Spec
import Idealize.ShloMosaic.Lib.ValueLayout
import Idealize.ShloMosaic.Lib.Pipeline.Value
import proofs.«133739_j13022340842268_2_alg».proof.Proof.CombineBridge
import proofs.«133739_j13022340842268_2_alg».proof.Proof.StatsBridge

noncomputable section

namespace Cert.GCN.Bridge

open Idealize.ShloMosaic Idealize.ShloMosaic.ValueIdx Cert.ReferenceIdeal Cert.ReferenceIdeal.ReadP Cert.GCN
open Cert.KernelIdeal.KDefs

/-- The node projection is the reference's: its `dot_general` is the same row-by-column sum and its twice-broadcast bias
    vector the same entry as the bias row's. -/
theorem lin_eq (X : FVec Ideal S50000x128 .f32) (W : FVec Ideal S128x128 .f32) (b : FVec Ideal S128 .f32)
    (h : S128.ShapeCasts S1x128) :
    lin X W (shapeCast S1x128 b h) = val_main_v3 (F := Ideal) X W b := by
  funext i
  obtain ⟨r, j, rfl⟩ : ∃ (r : Fin 50000) (j : Fin 128), i = ix2 r j := ⟨i 0, i 1, eq_ix2 i⟩
  rw [lin_ix2]
  unfold linC val_main_v3
  rw [addf_apply, val_main_v0_apply, val_main_v2_apply, val_main_v1_apply, shapeCast_a_1a_apply]
  have e1 : ∀ k : Fin 128, lidx_main_v0 (ix2 r j) k = ix2 r k := fun k => funext fun a => Fin.ext (by
    match a with | ⟨0, _⟩ => rfl | ⟨1, _⟩ => rfl)
  have e2 : ∀ k : Fin 128, ridx_main_v0 (ix2 r j) k = ix2 k j := fun k => funext fun a => Fin.ext (by
    match a with | ⟨0, _⟩ => rfl | ⟨1, _⟩ => rfl)
  have e3 : idx_main_v1 (idx_main_v2 (ix2 r j)) = ix1 j := funext fun a => Fin.ext (by
    match a with | ⟨0, _⟩ => rfl)
  simp only [e1, e2, e3]

/-- A change of float format is the identity on the extended reals. -/
theorem extf_id {s : Shape} (a : FVec Ideal s .bf16) (h : FTy.bf16.bits < FTy.f32.bits) : extf .f32 a h = a := rfl

variable (x0 : FVec Ideal Cert.KernelIdeal.S50000x128 .f32)
  (x1 : FVec Ideal Cert.KernelIdeal.S128x128 .f32) (x2 : FVec Ideal Cert.KernelIdeal.S128 .f32)
  (x3 : FVec Ideal Cert.KernelIdeal.S128x128 .f32) (x4 : FVec Ideal Cert.KernelIdeal.S128 .f32)
  (x5 : FVec Ideal Cert.KernelIdeal.S128x128 .f32) (x6 : FVec Ideal Cert.KernelIdeal.S128 .f32)
  (x7 : FVec Ideal Cert.KernelIdeal.S128x128 .f32) (x8 x9 x10 : FVec Ideal Cert.KernelIdeal.S128 .f32)
  (x11 x12 : IVec Cert.KernelIdeal.S800000 32)

/-- The edge gate of the reference's two gate projections is the reference's gate. -/
theorem gate_eq :
    gateK (val_main_v11 (F := Ideal) x0 x5 x6) (val_main_v15 (F := Ideal) x0 x7 x8) x11 x12
      = val_main_v36 (F := Ideal) x0 x5 x6 x7 x8 x11 x12 := by
  unfold gateK
  rw [extf_id, extf_id]
  rfl

/-! ## The four node projections -/

/-- The first projection (the node's own term) is the reference's. -/
theorem linA_eq : lin x0 x1 (row x2) = val_main_v3 (F := Ideal) x0 x1 x2 := lin_eq x0 x1 x2 _
/-- The second projection (the neighbours' messages) is the reference's. -/
theorem linB_eq : lin x0 x3 (row x4) = val_main_v7 (F := Ideal) x0 x3 x4 := (lin_eq x0 x3 x4 _).trans rfl
/-- The third projection (the gate's source term) is the reference's. -/
theorem linD_eq : lin x0 x5 (row x6) = val_main_v11 (F := Ideal) x0 x5 x6 := (lin_eq x0 x5 x6 _).trans rfl
/-- The fourth projection (the gate's destination term) is the reference's. -/
theorem linE_eq : lin x0 x7 (row x8) = val_main_v15 (F := Ideal) x0 x7 x8 := (lin_eq x0 x7 x8 _).trans rfl

/-! ## The numerator and the denominator -/

/-- The first column half of the one scatter-add is the reference's scatter-add of the weighted messages. -/
theorem num_eq :
    numK (val_main_v7 (F := Ideal) x0 x3 x4) (val_main_v11 (F := Ideal) x0 x5 x6) (val_main_v15 (F := Ideal) x0 x7 x8) x11 x12
      = val_main_v47 (F := Ideal) x0 x3 x4 x5 x6 x7 x8 x11 x12 := by
  unfold numK fusedK
  rw [gate_eq, extf_id]
  exact (Cert.GCN.ScatterSums.num_slice _ _ _).trans rfl

/-- The second column half of the one scatter-add is the reference's scatter-add of the gates. -/
theorem den_eq :
    denK (val_main_v7 (F := Ideal) x0 x3 x4) (val_main_v11 (F := Ideal) x0 x5 x6) (val_main_v15 (F := Ideal) x0 x7 x8) x11 x12
      = val_main_v50 (F := Ideal) x0 x5 x6 x7 x8 x11 x12 := by
  unfold denK fusedK
  rw [gate_eq, extf_id]
  exact (Cert.GCN.ScatterSums.den_slice _ _ _).trans rfl

/-! ## Every gate value is positive -/

/-- With finite node features and finite gate weights and biases, every gate value is positive. -/
theorem gate_pos' (hX : ∀ i, ∃ r : ℝ, x0 i = (r : EReal)) (hWD : ∀ i, ∃ r : ℝ, x5 i = (r : EReal))
    (hbD : ∀ i, ∃ r : ℝ, x6 i = (r : EReal)) (hWE : ∀ i, ∃ r : ℝ, x7 i = (r : EReal))
    (hbE : ∀ i, ∃ r : ℝ, x8 i = (r : EReal)) :
    ∀ j, 0 < val_main_v36 (F := Ideal) x0 x5 x6 x7 x8 x11 x12 j := fun j =>
  Cert.GCN.GatePos.gate_pos (val_main_v11 (F := Ideal) x0 x5 x6) (val_main_v15 (F := Ideal) x0 x7 x8)
    (Cert.GCN.GatePos.lin_finite x0 x5 x6 hX hWD hbD) (Cert.GCN.GatePos.lin_finite x0 x7 x8 hX hWE hbE)
    (val_main_v21 (F := Ideal) x11) (val_main_v28 (F := Ideal) x12) j

/-! ## The result -/

/-- With finite node features and finite gate weights and biases, the kernel program's result is the reference's. -/
theorem out_eq (hX : ∀ i, ∃ r : ℝ, x0 i = (r : EReal)) (hWD : ∀ i, ∃ r : ℝ, x5 i = (r : EReal))
    (hbD : ∀ i, ∃ r : ℝ, x6 i = (r : EReal)) (hWE : ∀ i, ∃ r : ℝ, x7 i = (r : EReal))
    (hbE : ∀ i, ∃ r : ℝ, x8 i = (r : EReal)) :
    outK x0 x1 x2 x3 x4 x5 x6 x7 x8 x9 x10 x11 x12 = val_main_v90 (F := Ideal) x0 x1 x2 x3 x4 x5 x6 x7 x8 x9 x10 x11 x12 := by
  have hnum : numK (lin x0 x3 (row x4)) (lin x0 x5 (row x6)) (lin x0 x7 (row x8)) x11 x12
      = val_main_v47 (F := Ideal) x0 x3 x4 x5 x6 x7 x8 x11 x12 := by
    rw [linB_eq, linD_eq, linE_eq]; exact num_eq x0 x3 x4 x5 x6 x7 x8 x11 x12
  have hden : denK (lin x0 x3 (row x4)) (lin x0 x5 (row x6)) (lin x0 x7 (row x8)) x11 x12
      = val_main_v50 (F := Ideal) x0 x5 x6 x7 x8 x11 x12 := by
    rw [linB_eq, linD_eq, linE_eq]; exact den_eq x0 x3 x4 x5 x6 x7 x8 x11 x12
  exact Cert.GCN.StatsBridge.out_eq_of_H (Cert.GCN.CombineBridge.H_eq x0 x1 x3 x5 x7 x2 x4 x6 x8 x11 x12
    (linA_eq x0 x1 x2) hnum hden (gate_pos' x0 x5 x6 x7 x8 x11 x12 hX hWD hbD hWE hbE))

end Cert.GCN.Bridge

end
-- ==== Proof.lean ====
/-
  The five claims. The three frames: the two kernel programs' are generated whole (three pallas_calls among host
  operations); the reference's is its run with the result dropped. The ideal pass rewrote nothing, so `preserves` is
  trivial. `algebraic`: the idealized kernel program's result array is `KDefs.outK` of the thirteen arguments — four node
  projections, the edge gate, the two column halves of one scatter-add by destination node, the gated combine, the
  column mean and variance, the normalisation — and the reference's composed term is the same function on the extended
  reals: a sum of strictly positive gate values is positive exactly when the node has an incoming edge (this is where
  the inputs' finiteness is used), a mean of squares is non-negative, and x · rsqrt v = x / sqrt v for v > 0.
-/
import proofs.«133739_j13022340842268_2_alg».proof.Defs
import proofs.«133739_j13022340842268_2_alg».proof.Proof.Gen.Kernel
import proofs.«133739_j13022340842268_2_alg».proof.Proof.Gen.Kernel.Frame
import proofs.«133739_j13022340842268_2_alg».proof.Proof.Gen.KernelIdeal
import proofs.«133739_j13022340842268_2_alg».proof.Proof.Gen.KernelIdeal.Frame
import proofs.«133739_j13022340842268_2_alg».proof.Proof.Gen.ReferenceIdeal
import proofs.«133739_j13022340842268_2_alg».proof.Proof.Gen.Pre_finite_inputs
import proofs.«133739_j13022340842268_2_alg».proof.Proof.RefRunP
import proofs.«133739_j13022340842268_2_alg».proof.Proof.RefReadP
import proofs.«133739_j13022340842268_2_alg».proof.Proof.KRun
import proofs.«133739_j13022340842268_2_alg».proof.Proof.KValue
import proofs.«133739_j13022340842268_2_alg».proof.Proof.GatePos
import proofs.«133739_j13022340842268_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the same result array: the kernel program's is read off its run as `outK` of the
    arguments, the reference's composed term is the same function when the float inputs are finite. -/
theorem algebraic : Cert.algebraic_KernelIdeal_ReferenceIdeal := by
  intro m ρ m' ρ' hpre hagree
  refine ⟨fun c => Cert.KernelIdeal.Gen.W6 m ρ c (Proc.devRef .tc Cert.KernelIdeal.main_v59), Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  obtain ⟨f0, f5, f6, f7, f8⟩ := Cert.GCN.GatePos.finite_of_pre m hpre c
  rw [Cert.ReferenceIdeal.ReadP.val_main_v90_eq, h0, h1, h2, h3, h4, h5, h6, h7, h8, h9, h10, h11, h12]
  refine Eq.trans ?_ (Cert.KernelIdeal.KValue.out_read m ρ c).symm
  exact (Cert.GCN.Bridge.out_eq _ _ _ _ _ _ _ _ _ _ _ _ _ f0 f5 f6 f7 f8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
